-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x128x128x128 : Shape := ⟨5, ![2, 1, 128, 128, 128]⟩
abbrev S_ : Shape := ⟨0, ![]⟩

class Facts : Prop where
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_
  h_S_ : 0 < S_.numel

variable [Facts]

def fn {F : FTy → Type} [FloatOps F] (main_arg0 : FVec F S2x1x128x128x128 .f32) (main_arg1 : FVec F S2x1x128x128x128 .f32) : IVec S_ 1 :=
  let main_v0 : FVec F S2x1x128x128x128 .f32 := Host.absf main_arg0
  let main_cst : FVec F S_ .f32 := constant S_ .f32 0x7F800000#32
  let main_v1 : FVec F S2x1x128x128x128 .f32 := broadcastInDim S2x1x128x128x128 ![] bcast_S_S2x1x128x128x128 main_cst
  let main_v2 : IVec S2x1x128x128x128 1 := cmpf .olt main_v0 main_v1
  let main_c : IVec S_ 1 := constantI S_ 1 1#1
  let main_v3 : IVec S_ 1 := (fun x v => Host.reduce IntOp.andi x v reducesTo_S2x1x128x128x128_S_d0_1_2_3_4 h_S_) main_v2 main_c
  let main_v4 : FVec F S2x1x128x128x128 .f32 := Host.absf main_arg1
  let main_cst_0 : FVec F S_ .f32 := constant S_ .f32 0x7F800000#32
  let main_v5 : FVec F S2x1x128x128x128 .f32 := broadcastInDim S2x1x128x128x128 ![] bcast_S_S2x1x128x128x128 main_cst_0
  let main_v6 : IVec S2x1x128x128x128 1 := cmpf .olt main_v4 main_v5
  let main_c_1 : IVec S_ 1 := constantI S_ 1 1#1
  let main_v7 : IVec S_ 1 := (fun x v => Host.reduce IntOp.andi x v reducesTo_S2x1x128x128x128_S_d0_1_2_3_4 h_S_) main_v6 main_c_1
  let main_v8 : IVec S_ 1 := andi main_v3 main_v7
  main_v8
-- ==== Kernel.lean ====
abbrev S2x1x128x128x128 : Shape := ⟨5, ![2, 1, 128, 128, 128]⟩
abbrev S16 : Shape := ⟨1, ![16]⟩
abbrev S2x1x2097152 : Shape := ⟨3, ![2, 1, 2097152]⟩
abbrev S16x1 : Shape := ⟨2, ![16, 1]⟩
abbrev S2x16x16 : Shape := ⟨3, ![2, 16, 16]⟩
abbrev S2x16x1 : Shape := ⟨3, ![2, 16, 1]⟩
abbrev S1x1x32768 : Shape := ⟨3, ![1, 1, 32768]⟩
abbrev S1x16x16 : Shape := ⟨3, ![1, 16, 16]⟩
abbrev S1x16x1 : Shape := ⟨3, ![1, 16, 1]⟩
abbrev S1x32768 : Shape := ⟨2, ![1, 32768]⟩
abbrev S16x32768 : Shape := ⟨2, ![16, 32768]⟩
abbrev S32768 : Shape := ⟨1, ![32768]⟩
abbrev S16x16 : Shape := ⟨2, ![16, 16]⟩
abbrev S_ : Shape := ⟨0, ![]⟩
abbrev S2x16 : Shape := ⟨2, ![2, 16]⟩
abbrev S2 : Shape := ⟨1, ![2]⟩

abbrev nBuf : Space → Nat
  | .hbm => 67
  | .vmem => 11
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S16, .f32⟩
  | .hbm, ⟨3, _⟩ => ⟨S2x1x2097152, .f32⟩
  | .hbm, ⟨4, _⟩ => ⟨S2x1x2097152, .f32⟩
  | .hbm, ⟨5, _⟩ => ⟨S16x1, .f32⟩
  | .hbm, ⟨6, _⟩ => ⟨S2x16x16, .f32⟩
  | .hbm, ⟨7, _⟩ => ⟨S2x16x1, .f32⟩
  | .hbm, ⟨8, _⟩ => ⟨S2x16x1, .f32⟩
  | .hbm, ⟨9, _⟩ => ⟨S_, .f32⟩
  | .hbm, ⟨10, _⟩ => ⟨S2x16x16, .f32⟩
  | .hbm, ⟨11, _⟩ => ⟨S2x16x16, .f32⟩
  | .hbm, ⟨12, _⟩ => ⟨S2x16, .f32⟩
  | .hbm, ⟨13, _⟩ => ⟨S_, .f32⟩
  | .hbm, ⟨14, _⟩ => ⟨S2x16, .f32⟩
  | .hbm, ⟨15, _⟩ => ⟨S2x16, .f32⟩
  | .hbm, ⟨16, _⟩ => ⟨S2x16, .f32⟩
  | .hbm, ⟨17, _⟩ => ⟨S_, .f32⟩
  | .hbm, ⟨18, _⟩ => ⟨S2x16, .f32⟩
  | .hbm, ⟨19, _⟩ => ⟨S2x16, .f32⟩
  | .hbm, ⟨20, _⟩ => ⟨S_, .f32⟩
  | .hbm, ⟨21, _⟩ => ⟨S2x16x16, .f32⟩
  | .hbm, ⟨22, _⟩ => ⟨S2x16x16, .f32⟩
  | .hbm, ⟨23, _⟩ => ⟨S2x16x16, .f32⟩
  | .hbm, ⟨24, _⟩ => ⟨S_, .f32⟩
  | .hbm, ⟨25, _⟩ => ⟨S_, .f32⟩
  | .hbm, ⟨26, _⟩ => ⟨S2x16x16, .f32⟩
  | .hbm, ⟨27, _⟩ => ⟨S2x16x16, .f32⟩
  | .hbm, ⟨28, _⟩ => ⟨S2x16x16, .f32⟩
  | .hbm, ⟨29, _⟩ => ⟨S_, .f32⟩
  | .hbm, ⟨30, _⟩ => ⟨S2, .f32⟩
  | .hbm, ⟨31, _⟩ => ⟨S2, .f32⟩
  | .hbm, ⟨32, _⟩ => ⟨S_, .f32⟩
  | .hbm, ⟨33, _⟩ => ⟨S2x16, .f32⟩
  | .hbm, ⟨34, _⟩ => ⟨S2x16, .f32⟩
  | .hbm, ⟨35, _⟩ => ⟨S2x16, .f32⟩
  | .hbm, ⟨36, _⟩ => ⟨S_, .f32⟩
  | .hbm, ⟨37, _⟩ => ⟨S_, .f32⟩
  | .hbm, ⟨38, _⟩ => ⟨S2x16, .f32⟩
  | .hbm, ⟨39, _⟩ => ⟨S2x16, .f32⟩
  | .hbm, ⟨40, _⟩ => ⟨S2x16, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S_, .f32⟩
  | .hbm, ⟨45, _⟩ => ⟨S2x16, .f32⟩
  | .hbm, ⟨46, _⟩ => ⟨S2x16, .f32⟩
  | .hbm, ⟨47, _⟩ => ⟨S2x16, .f32⟩
  | .hbm, ⟨48, _⟩ => ⟨S_, .f32⟩
  | .hbm, ⟨49, _⟩ => ⟨S_, .f32⟩
  | .hbm, ⟨50, _⟩ => ⟨S2x16, .f32⟩
  | .hbm, ⟨51, _⟩ => ⟨S2x16, .f32⟩
  | .hbm, ⟨52, _⟩ => ⟨S2x16, .f32⟩
  | .hbm, ⟨53, _⟩ => ⟨S_, .f32⟩
  | .hbm, ⟨54, _⟩ => ⟨S2, .f32⟩
  | .hbm, ⟨55, _⟩ => ⟨S2, .f32⟩
  | .hbm, ⟨56, _⟩ => ⟨S2, .f32⟩
  | .hbm, ⟨57, _⟩ => ⟨S2, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S2, .f32⟩
  | .hbm, ⟨63, _⟩ => ⟨S2, .f32⟩
  | .hbm, ⟨64, _⟩ => ⟨S_, .f32⟩
  | .hbm, ⟨65, _⟩ => ⟨S2, .f32⟩
  | .hbm, ⟨66, _⟩ => ⟨S2, .f32⟩
  | .local _ .vmem, ⟨0, _⟩ => ⟨S1x1x32768, .f32⟩
  | .local _ .vmem, ⟨1, _⟩ => ⟨S1x1x32768, .f32⟩
  | .local _ .vmem, ⟨2, _⟩ => ⟨S1x1x32768, .f32⟩
  | .local _ .vmem, ⟨3, _⟩ => ⟨S1x1x32768, .f32⟩
  | .local _ .vmem, ⟨4, _⟩ => ⟨S16x1, .f32⟩
  | .local _ .vmem, ⟨5, _⟩ => ⟨S1x16x16, .f32⟩
  | .local _ .vmem, ⟨6, _⟩ => ⟨S1x16x16, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | _, _ => ⟨S2x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x1x128x128x128_S2x1x2097152 : S2x1x128x128x128.ShapeCasts S2x1x2097152
  shapeCasts_S16_S16x1 : S16.ShapeCasts S16x1
  inb_S1x16x16_S1x16x16_0_0_0 : ∀ a, (![0, 0, 0] : Fin 3 → Nat) a + S1x16x16.size a ≤ S1x16x16.size a
  h_S1x16x16 : 0 < S1x16x16.numel
  inb_S1x16x1_S1x16x1_0_0_0 : ∀ a, (![0, 0, 0] : Fin 3 → Nat) a + S1x16x1.size a ≤ S1x16x1.size a
  h_S1x16x1 : 0 < S1x16x1.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x32768 : S1x1x32768.ShapeCasts S1x32768
  broadcasts_S1x32768_S16x32768 : S1x32768.Broadcasts S16x32768
  broadcasts_S16x1_S16x32768 : S16x1.Broadcasts S16x32768
  reduces_S16x32768_S32768 : S16x32768.Reduces [0] S32768
  shapeCasts_S32768_S1x32768 : S32768.ShapeCasts S1x32768
  bitsLt_bf16_f32 : FTy.bits .bf16 < FTy.bits .f32
  shapeCasts_S1x16x16_S16x16 : S1x16x16.ShapeCasts S16x16
  shapeCasts_S16x16_S1x16x16 : S16x16.ShapeCasts S1x16x16
  shapeCasts_S1x16x1_S16x1 : S1x16x1.ShapeCasts S16x1
  reduces_S16x32768_S16 : S16x32768.Reduces [1] S16
  shapeCasts_S16x1_S1x16x1 : S16x1.ShapeCasts S1x16x1
  bcast_S_S2x16x16 : S_.BroadcastsInDim S2x16x16 (![] : Fin 0 → Fin S2x16x16.rank)
  shapeCasts_S2x16x1_S2x16 : S2x16x1.ShapeCasts S2x16
  bcast_S_S2x16 : S_.BroadcastsInDim S2x16 (![] : Fin 0 → Fin S2x16.rank)
  reducesTo_S2x16x16_S2_d1_2 : S2x16x16.ReducesTo [1, 2] S2
  h_S_ : 0 < S_.numel
  reducesTo_S2x16_S2_d1 : S2x16.ReducesTo [1] S2
  bcast_S_S2 : S_.BroadcastsInDim S2 (![] : Fin 0 → Fin S2.rank)
  dot_S16x32768_S16x32768_S16x16_1_1_0_0_n_n_wf : DotDims.WF S16x32768 S16x32768 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32768.size a ≤ S2x1x2097152.size a
  hwx0_0 : ∀ i : grid0.Coords, EltTy.bits .f32 = 32 ∨ (Rect.block (s := S2x1x2097152) S1x1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S2x1x2097152.size a
  hwx0_1 : ∀ i : grid0.Coords, EltTy.bits .f32 = 32 ∨ (Rect.block (s := S2x1x2097152) S1x1x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x16.size a ≤ S2x16x16.size a
  hwx0_3 : ∀ i : grid0.Coords, EltTy.bits .f32 = 32 ∨ (Rect.block (s := S2x16x16) S1x16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S2x16x1.size a
  hwx0_4 : ∀ i : grid0.Coords, EltTy.bits .f32 = 32 ∨ (Rect.block (s := S2x16x1) S1x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S2x16x1.size a
  hwx0_5 : ∀ i : grid0.Coords, EltTy.bits .f32 = 32 ∨ (Rect.block (s := S2x16x1) S1x16x1.size (cc0_transform_5 i) (hinb0_5 i)).WholeWords (EltTy.packing .f32)

variable [Facts₀]

def dot_S16x32768_S16x32768_S16x16_1_1_0_0_n_n : DotDims S16x32768 S16x32768 S16x16 where
  lhsContracting := [1]
  rhsContracting := [1]
  lhsNonContracting := [0]
  rhsNonContracting := [0]
  lhsBatch := []
  rhsBatch := []
  wf := dot_S16x32768_S16x32768_S16x16_1_1_0_0_n_n_wf

abbrev win0_0 : Pipeline.Window sig grid0 :=
  Pipeline.Window.ofSpec (Memref.whole main_v0) S1x1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x16x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x1x128x128x128 : Shape := ⟨5, ![2, 1, 128, 128, 128]⟩
abbrev S16 : Shape := ⟨1, ![16]⟩
abbrev S2x2097152 : Shape := ⟨2, ![2, 2097152]⟩
abbrev S2x2097152x1 : Shape := ⟨3, ![2, 2097152, 1]⟩
abbrev S1x1x16 : Shape := ⟨3, ![1, 1, 16]⟩
abbrev S2x2097152x16 : Shape := ⟨3, ![2, 2097152, 16]⟩
abbrev S_ : Shape := ⟨0, ![]⟩
abbrev S2x16x16 : Shape := ⟨3, ![2, 16, 16]⟩
abbrev S2x16 : Shape := ⟨2, ![2, 16]⟩
abbrev S2 : Shape := ⟨1, ![2]⟩

abbrev nBuf : Space → Nat
  | .hbm => 96
  | .vmem => 0
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S16, .f32⟩
  | .hbm, ⟨3, _⟩ => ⟨S2x2097152, .f32⟩
  | .hbm, ⟨4, _⟩ => ⟨S2x2097152, .f32⟩
  | .hbm, ⟨5, _⟩ => ⟨S2x2097152x1, .f32⟩
  | .hbm, ⟨6, _⟩ => ⟨S1x1x16, .f32⟩
  | .hbm, ⟨7, _⟩ => ⟨S2x2097152x16, .f32⟩
  | .hbm, ⟨8, _⟩ => ⟨S2x2097152x16, .f32⟩
  | .hbm, ⟨9, _⟩ => ⟨S2x2097152x16, .f32⟩
  | .hbm, ⟨10, _⟩ => ⟨S2x2097152x16, .f32⟩
  | .hbm, ⟨11, _⟩ => ⟨S_, .f32⟩
  | .hbm, ⟨12, _⟩ => ⟨S2x2097152x16, .f32⟩
  | .hbm, ⟨13, _⟩ => ⟨S2x2097152x16, .f32⟩
  | .hbm, ⟨14, _⟩ => ⟨S2x2097152x16, .f32⟩
  | .hbm, ⟨15, _⟩ => ⟨S_, .f32⟩
  | .hbm, ⟨16, _⟩ => ⟨S2x2097152, .f32⟩
  | .hbm, ⟨17, _⟩ => ⟨S2x2097152x1, .f32⟩
  | .hbm, ⟨18, _⟩ => ⟨S2x2097152x16, .f32⟩
  | .hbm, ⟨19, _⟩ => ⟨S2x2097152x16, .f32⟩
  | .hbm, ⟨20, _⟩ => ⟨S2x2097152x1, .f32⟩
  | .hbm, ⟨21, _⟩ => ⟨S1x1x16, .f32⟩
  | .hbm, ⟨22, _⟩ => ⟨S2x2097152x16, .f32⟩
  | .hbm, ⟨23, _⟩ => ⟨S2x2097152x16, .f32⟩
  | .hbm, ⟨24, _⟩ => ⟨S2x2097152x16, .f32⟩
  | .hbm, ⟨25, _⟩ => ⟨S2x2097152x16, .f32⟩
  | .hbm, ⟨26, _⟩ => ⟨S_, .f32⟩
  | .hbm, ⟨27, _⟩ => ⟨S2x2097152x16, .f32⟩
  | .hbm, ⟨28, _⟩ => ⟨S2x2097152x16, .f32⟩
  | .hbm, ⟨29, _⟩ => ⟨S2x2097152x16, .f32⟩
  | .hbm, ⟨30, _⟩ => ⟨S_, .f32⟩
  | .hbm, ⟨31, _⟩ => ⟨S2x2097152, .f32⟩
  | .hbm, ⟨32, _⟩ => ⟨S2x2097152x1, .f32⟩
  | .hbm, ⟨33, _⟩ => ⟨S2x2097152x16, .f32⟩
  | .hbm, ⟨34, _⟩ => ⟨S2x2097152x16, .f32⟩
  | .hbm, ⟨35, _⟩ => ⟨S2x16x16, .f32⟩
  | .hbm, ⟨36, _⟩ => ⟨S_, .f32⟩
  | .hbm, ⟨37, _⟩ => ⟨S2x16x16, .f32⟩
  | .hbm, ⟨38, _⟩ => ⟨S2x16x16, .f32⟩
  | .hbm, ⟨39, _⟩ => ⟨S_, .f32⟩
  | .hbm, ⟨40, _⟩ => ⟨S2x16, .f32⟩
  | .hbm, ⟨41, _⟩ => ⟨S_, .f32⟩
  | .hbm, ⟨42, _⟩ => ⟨S2x16, .f32⟩
  | .hbm, ⟨43, _⟩ => ⟨S2x16, .f32⟩
  | .hbm, ⟨44, _⟩ => ⟨S_, .f32⟩
  | .hbm, ⟨45, _⟩ => ⟨S2x16, .f32⟩
  | .hbm, ⟨46, _⟩ => ⟨S_, .f32⟩
  | .hbm, ⟨47, _⟩ => ⟨S2x16, .f32⟩
  | .hbm, ⟨48, _⟩ => ⟨S2x16, .f32⟩
  | .hbm, ⟨49, _⟩ => ⟨S_, .f32⟩
  | .hbm, ⟨50, _⟩ => ⟨S2x16x16, .f32⟩
  | .hbm, ⟨51, _⟩ => ⟨S2x16x16, .f32⟩
  | .hbm, ⟨52, _⟩ => ⟨S2x16x16, .f32⟩
  | .hbm, ⟨53, _⟩ => ⟨S_, .f32⟩
  | .hbm, ⟨54, _⟩ => ⟨S_, .f32⟩
  | .hbm, ⟨55, _⟩ => ⟨S2x16x16, .f32⟩
  | .hbm, ⟨56, _⟩ => ⟨S2x16x16, .f32⟩
  | .hbm, ⟨57, _⟩ => ⟨S2x16x16, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S2x16, .f32⟩
  | .hbm, ⟨63, _⟩ => ⟨S2x16, .f32⟩
  | .hbm, ⟨64, _⟩ => ⟨S2x16, .f32⟩
  | .hbm, ⟨65, _⟩ => ⟨S_, .f32⟩
  | .hbm, ⟨66, _⟩ => ⟨S_, .f32⟩
  | .hbm, ⟨67, _⟩ => ⟨S2x16, .f32⟩
  | .hbm, ⟨68, _⟩ => ⟨S2x16, .f32⟩
  | .hbm, ⟨69, _⟩ => ⟨S2x16, .f32⟩
  | .hbm, ⟨70, _⟩ => ⟨S_, .f32⟩
  | .hbm, ⟨71, _⟩ => ⟨S2, .f32⟩
  | .hbm, ⟨72, _⟩ => ⟨S2, .f32⟩
  | .hbm, ⟨73, _⟩ => ⟨S_, .f32⟩
  | .hbm, ⟨74, _⟩ => ⟨S2x16, .f32⟩
  | .hbm, ⟨75, _⟩ => ⟨S2x16, .f32⟩
  | .hbm, ⟨76, _⟩ => ⟨S2x16, .f32⟩
  | .hbm, ⟨77, _⟩ => ⟨S_, .f32⟩
  | .hbm, ⟨78, _⟩ => ⟨S_, .f32⟩
  | .hbm, ⟨79, _⟩ => ⟨S2x16, .f32⟩
  | .hbm, ⟨80, _⟩ => ⟨S2x16, .f32⟩
  | .hbm, ⟨81, _⟩ => ⟨S2x16, .f32⟩
  | .hbm, ⟨82, _⟩ => ⟨S_, .f32⟩
  | .hbm, ⟨83, _⟩ => ⟨S2, .f32⟩
  | .hbm, ⟨84, _⟩ => ⟨S2, .f32⟩
  | .hbm, ⟨85, _⟩ => ⟨S2, .f32⟩
  | .hbm, ⟨86, _⟩ => ⟨S2, .f32⟩
  | .hbm, ⟨87, _⟩ => ⟨S_, .f32⟩
  | .hbm, ⟨88, _⟩ => ⟨S2, .f32⟩
  | .hbm, ⟨89, _⟩ => ⟨S2, .f32⟩
  | .hbm, ⟨90, _⟩ => ⟨S_, .f32⟩
  | .hbm, ⟨91, _⟩ => ⟨S2, .f32⟩
  | .hbm, ⟨92, _⟩ => ⟨S2, .f32⟩
  | .hbm, ⟨93, _⟩ => ⟨S_, .f32⟩
  | .hbm, ⟨94, _⟩ => ⟨S2, .f32⟩
  | .hbm, ⟨95, _⟩ => ⟨S2, .f32⟩
  | _, _ => ⟨S2x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_16 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_18 : Ref sig .tc := ⟨.hbm, 87, rfl⟩
abbrev main_v66 : Ref sig .tc := ⟨.hbm, 88, rfl⟩
abbrev main_v67 : Ref sig .tc := ⟨.hbm, 89, rfl⟩
abbrev main_cst_19 : Ref sig .tc := ⟨.hbm, 90, rfl⟩
abbrev main_v68 : Ref sig .tc := ⟨.hbm, 91, rfl⟩
abbrev main_v69 : Ref sig .tc := ⟨.hbm, 92, rfl⟩
abbrev main_cst_20 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  shapeCasts_S2x1x128x128x128_S2x2097152 : S2x1x128x128x128.ShapeCasts S2x2097152
  bcast_S2x2097152_S2x2097152x1_0_1 : S2x2097152.BroadcastsInDim S2x2097152x1 (![0, 1] : Fin 2 → Fin S2x2097152x1.rank)
  bcast_S16_S1x1x16_2 : S16.BroadcastsInDim S1x1x16 (![2] : Fin 1 → Fin S1x1x16.rank)
  bcast_S2x2097152x1_S2x2097152x16_0_1_2 : S2x2097152x1.BroadcastsInDim S2x2097152x16 (![0, 1, 2] : Fin 3 → Fin S2x2097152x16.rank)
  bcast_S1x1x16_S2x2097152x16_0_1_2 : S1x1x16.BroadcastsInDim S2x2097152x16 (![0, 1, 2] : Fin 3 → Fin S2x2097152x16.rank)
  bcast_S_S2x2097152x16 : S_.BroadcastsInDim S2x2097152x16 (![] : Fin 0 → Fin S2x2097152x16.rank)
  reducesTo_S2x2097152x16_S2x2097152_d2 : S2x2097152x16.ReducesTo [2] S2x2097152
  h_S_ : 0 < S_.numel
  bcast_S_S2x16x16 : S_.BroadcastsInDim S2x16x16 (![] : Fin 0 → Fin S2x16x16.rank)
  reducesTo_S2x2097152x16_S2x16_d1 : S2x2097152x16.ReducesTo [1] S2x16
  bcast_S_S2x16 : S_.BroadcastsInDim S2x16 (![] : Fin 0 → Fin S2x16.rank)
  reducesTo_S2x16x16_S2_d1_2 : S2x16x16.ReducesTo [1, 2] S2
  reducesTo_S2x16_S2_d1 : S2x16.ReducesTo [1] S2
  bcast_S_S2 : S_.BroadcastsInDim S2 (![] : Fin 0 → Fin S2.rank)
  dot_S2x2097152x16_S2x2097152x16_S2x16x16_1_1_2_2_0_0_wf : DotDims.WF S2x2097152x16 S2x2097152x16 S2x16x16 [1] [1] [2] [2] [0] [0]

variable [Facts₀]

def dot_S2x2097152x16_S2x2097152x16_S2x16x16_1_1_2_2_0_0 : DotDims S2x2097152x16 S2x2097152x16 S2x16x16 where
  lhsContracting := [1]
  rhsContracting := [1]
  lhsNonContracting := [2]
  rhsNonContracting := [2]
  lhsBatch := [0]
  rhsBatch := [0]
  wf := dot_S2x2097152x16_S2x2097152x16_S2x16x16_1_1_2_2_0_0_wf

class Facts : Prop extends Facts₀ where

variable [Facts]
-- ==== Proof.KPieces.lean ====
/-
  What the kernel body leaves in its three output blocks, as pure functions of the blocks it loads.

  At the first voxel tile of a batch element (case A) the body first stores zero blocks and then accumulates into
  them; at every later tile (case B) it accumulates into what the tile before left.  Either way the joint block ends
  at (old joint block) + (this tile's product of the two soft-assignment matrices), and each marginal block at
  (old marginal block) + (this tile's row sums), the old blocks being zero in case A.
-/
import proofs.«118697_j43104291783207_1_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile, joint block: zero plus the tile's product. -/
theorem outA3 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : cond0_0 i) (x0 : Vec F S1x1x32768 .f32) (x1 : Vec F S1x1x32768 .f32) (x2 : Vec F S16x1 .f32) :
    out0_A_3 c i arg2 harg2 arg3 harg3 arg4 harg4 arg5 harg5 arg6 harg6 arg7 harg7 hc0 x0 x1 x2 = k0_pay1 (k0_pay10 x2 x0 x1 (k0_pay4 (F := F))) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x16x16) hz3, View.readCov_unit_zero (S := S1x16x16) _ hz3]
  simp only [View.readAt_eq_ld, harg2.read_unread, harg3.read_unread, harg4.read_unread,
    View.ld_unit_zero (S := S1x1x32768) hz3, View.ld_unit_zero (S := S16x1) hz2]

/-- First tile, first marginal block: zero plus the tile's row sums of the first volume's assignments. -/
theorem outA4 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : cond0_0 i) (x0 : Vec F S1x1x32768 .f32) (x1 : Vec F S1x1x32768 .f32) (x2 : Vec F S16x1 .f32) :
    out0_A_4 c i arg2 harg2 arg3 harg3 arg4 harg4 arg5 harg5 arg6 harg6 arg7 harg7 hc0 x0 x1 x2 = k0_pay2 (k0_pay8 x2 x0) (k0_pay5 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread,
    View.ld_unit_zero (S := S1x1x32768) hz3, View.ld_unit_zero (S := S16x1) hz2]

/-- First tile, second marginal block. -/
theorem outA5 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : cond0_0 i) (x0 : Vec F S1x1x32768 .f32) (x1 : Vec F S1x1x32768 .f32) (x2 : Vec F S16x1 .f32) :
    out0_A_5 c i arg2 harg2 arg3 harg3 arg4 harg4 arg5 harg5 arg6 harg6 arg7 harg7 hc0 x0 x1 x2 = k0_pay3 (k0_pay9 x2 x1) (k0_pay6 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread,
    View.ld_unit_zero (S := S1x1x32768) hz3, View.ld_unit_zero (S := S16x1) hz2]

/-- A later tile, joint block: what the tile before left plus this tile's product. -/
theorem outB3 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : ¬cond0_0 i) (x0 : Vec F S1x1x32768 .f32) (x1 : Vec F S1x1x32768 .f32) (x2 : Vec F S16x1 .f32) (xo3 : Vec F S1x16x16 .f32) (xo4 : Vec F S1x16x1 .f32) (xo5 : Vec F S1x16x1 .f32) :
    out0_B_3 c i arg2 harg2 arg3 harg3 arg4 harg4 arg5 harg5 arg6 harg6 arg7 harg7 hc0 x0 x1 x2 xo3 xo4 xo5 = k0_pay1 (k0_pay10 x2 x0 x1 xo3) := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x16x16) hz3]
  simp only [View.readAt_eq_ld, harg2.read_unread, harg3.read_unread, harg4.read_unread, harg5.read_unread,
    View.ld_unit_zero (S := S1x1x32768) hz3, View.ld_unit_zero (S := S16x1) hz2, View.ld_unit_zero (S := S1x16x16) hz3]

/-- A later tile, first marginal block. -/
theorem outB4 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : ¬cond0_0 i) (x0 : Vec F S1x1x32768 .f32) (x1 : Vec F S1x1x32768 .f32) (x2 : Vec F S16x1 .f32) (xo3 : Vec F S1x16x16 .f32) (xo4 : Vec F S1x16x1 .f32) (xo5 : Vec F S1x16x1 .f32) :
    out0_B_4 c i arg2 harg2 arg3 harg3 arg4 harg4 arg5 harg5 arg6 harg6 arg7 harg7 hc0 x0 x1 x2 xo3 xo4 xo5 = k0_pay2 (k0_pay8 x2 x0) xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x16x1) hz3]
  simp only [View.readAt_eq_ld, harg2.read_unread, harg3.read_unread, harg4.read_unread, harg6.read_unread,
    View.ld_unit_zero (S := S1x1x32768) hz3, View.ld_unit_zero (S := S16x1) hz2, View.ld_unit_zero (S := S1x16x1) hz3]

/-- A later tile, second marginal block. -/
theorem outB5 (c : Dev nD) (i : grid0.Coords) (arg2 : Memref sig .tc .vmem S1x1x32768 .f32) (harg2 : arg2.IsWhole) (arg3 : Memref sig .tc .vmem S1x1x32768 .f32) (harg3 : arg3.IsWhole) (arg4 : Memref sig .tc .vmem S16x1 .f32) (harg4 : arg4.IsWhole) (arg5 : Memref sig .tc .vmem S1x16x16 .f32) (harg5 : arg5.IsWhole) (arg6 : Memref sig .tc .vmem S1x16x1 .f32) (harg6 : arg6.IsWhole) (arg7 : Memref sig .tc .vmem S1x16x1 .f32) (harg7 : arg7.IsWhole) (hc0 : ¬cond0_0 i) (x0 : Vec F S1x1x32768 .f32) (x1 : Vec F S1x1x32768 .f32) (x2 : Vec F S16x1 .f32) (xo3 : Vec F S1x16x16 .f32) (xo4 : Vec F S1x16x1 .f32) (xo5 : Vec F S1x16x1 .f32) :
    out0_B_5 c i arg2 harg2 arg3 harg3 arg4 harg4 arg5 harg5 arg6 harg6 arg7 harg7 hc0 x0 x1 x2 xo3 xo4 xo5 = k0_pay3 (k0_pay9 x2 x1) xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x16x1) hz3]
  simp only [View.readAt_eq_ld, harg2.read_unread, harg3.read_unread, harg4.read_unread, harg7.read_unread,
    View.ld_unit_zero (S := S1x1x32768) hz3, View.ld_unit_zero (S := S16x1) hz2, View.ld_unit_zero (S := S1x16x1) hz3]

end Cert.KernelIdeal.KV

end
-- ==== Proof.Spec.lean ====
/-
  The common value of the two programs, over plain index types.

  A voxel of intensity x is assigned to the 16 bins softly: bin i of centre c_i gets the weight
  w_i(x) = exp (K (x - c_i)^2) (K the negative scale word) divided by the sum of the 16 weights.  Per batch element
  the joint histogram of two volumes a, b is J(i,j) = sum over voxels g of soft_i(a g) * soft_j(b g) and a marginal
  is M(i) = sum over voxels g of soft_i(a g).  The loss is 1 - 2 (1 - Hxy / (Hx + Hy)) with the three entropies
  taken of J / V, Ma / V, Mb / V (V the voxel count word) as -(sum of p * (log (p + eps) / log 2)).
  Both programs are read to this value: the kernel accumulates J and M over 64 voxel tiles per batch element, the
  reference contracts over all voxels at once; on the extended reals the two sums are the same sum regrouped.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Hist

open Idealize.ShloMosaic Idealize.ShloMosaic.ValueIdx

abbrev T0 : Shape := ⟨0, ![]⟩
abbrev T2 : Shape := ⟨1, ![2]⟩
abbrev T2x16 : Shape := ⟨2, ![2, 16]⟩
abbrev T2x16x16 : Shape := ⟨3, ![2, 16, 16]⟩

/-- Voxels per batch element: 128 * 128 * 128. -/
abbrev NV : Nat := 2097152

/-- The unnormalised weight of the bin of centre `c` at intensity `x`. -/
def wt (c x : EReal) : EReal := Ideal.exp (Ideal.ofBits .f32 0xC62FC800#32 * ((x - c) * (x - c)))

/-- The soft assignment of intensity `x` to bin `i`: its weight over the sum of the sixteen weights. -/
def soft (cs : Fin 16 → EReal) (x : EReal) (i : Fin 16) : EReal :=
  Ideal.div (wt (cs i) x) (∑ k : Fin 16, wt (cs k) x)

/-- The joint soft histogram of two volumes, unnormalised. -/
def joint (cs : Fin 16 → EReal) (a b : Fin NV → EReal) (i j : Fin 16) : EReal :=
  ∑ g : Fin NV, soft cs (a g) i * soft cs (b g) j

/-- The marginal soft histogram of one volume, unnormalised. -/
def marg (cs : Fin 16 → EReal) (a : Fin NV → EReal) (i : Fin 16) : EReal :=
  ∑ g : Fin NV, soft cs (a g) i

/-- The joint histograms of a batch of two pairs of volumes as a 2 x 16 x 16 array. -/
def jointV (cs : Fin 16 → EReal) (a b : Fin 2 → Fin NV → EReal) : FVec Ideal T2x16x16 .f32 :=
  fun q => joint cs (a (q 0)) (b (q 0)) (q 1) (q 2)

/-- The marginals of a batch of two volumes as a 2 x 16 array. -/
def margV (cs : Fin 16 → EReal) (a : Fin 2 → Fin NV → EReal) : FVec Ideal T2x16 .f32 :=
  fun q => marg cs (a (q 0)) (q 1)

theorem hb3 : T0.BroadcastsInDim T2x16x16 (![] : Fin 0 → Fin T2x16x16.rank) := by decide
theorem hb2 : T0.BroadcastsInDim T2x16 (![] : Fin 0 → Fin T2x16.rank) := by decide
theorem hb1 : T0.BroadcastsInDim T2 (![] : Fin 0 → Fin T2.rank) := by decide
theorem hr3 : T2x16x16.ReducesTo [1, 2] T2 := by decide
theorem hr2 : T2x16.ReducesTo [1] T2 := by decide
theorem h0 : 0 < T0.numel := by decide

/-- Division of a histogram by the voxel count. -/
def scale3 (P : FVec Ideal T2x16x16 .f32) : FVec Ideal T2x16x16 .f32 :=
  Host.divf P (broadcastInDim T2x16x16 ![] hb3 (constant (F := Ideal) T0 .f32 0x4A000000#32))

def scale2 (A : FVec Ideal T2x16 .f32) : FVec Ideal T2x16 .f32 :=
  Host.divf A (broadcastInDim T2x16 ![] hb2 (constant (F := Ideal) T0 .f32 0x4A000000#32))

/-- The entropy in bits of a joint distribution per batch element: -(sum of p * (log (p + eps) / log 2)). -/
def ent3 (p : FVec Ideal T2x16x16 .f32) : FVec Ideal T2 .f32 :=
  Host.negf (Host.reduceAdd
    (mulf p (Host.divf (Host.log (addf p (broadcastInDim T2x16x16 ![] hb3 (constant (F := Ideal) T0 .f32 0x358637BD#32))))
      (broadcastInDim T2x16x16 ![] hb3 (Host.log (constant (F := Ideal) T0 .f32 0x40000000#32)))))
    (constant (F := Ideal) T0 .f32 0x00000000#32) hr3 h0)

/-- The entropy in bits of a marginal distribution per batch element. -/
def ent2 (p : FVec Ideal T2x16 .f32) : FVec Ideal T2 .f32 :=
  Host.negf (Host.reduceAdd
    (mulf p (Host.divf (Host.log (addf p (broadcastInDim T2x16 ![] hb2 (constant (F := Ideal) T0 .f32 0x358637BD#32))))
      (broadcastInDim T2x16 ![] hb2 (Host.log (constant (F := Ideal) T0 .f32 0x40000000#32)))))
    (constant (F := Ideal) T0 .f32 0x00000000#32) hr2 h0)

/-- From the unnormalised joint histogram `P` and marginals `A`, `B` to the loss 1 - 2 (1 - Hxy / (Hx + Hy)). -/
def tail (P : FVec Ideal T2x16x16 .f32) (A B : FVec Ideal T2x16 .f32) : FVec Ideal T2 .f32 :=
  subf (broadcastInDim T2 ![] hb1 (constant (F := Ideal) T0 .f32 0x3F800000#32))
    (mulf (broadcastInDim T2 ![] hb1 (constant (F := Ideal) T0 .f32 0x40000000#32))
      (subf (broadcastInDim T2 ![] hb1 (constant (F := Ideal) T0 .f32 0x3F800000#32))
        (Host.divf (ent3 (scale3 P)) (addf (ent2 (scale2 A)) (ent2 (scale2 B))))))

/-- The shape of an argument array, and of its flattening per batch element. -/
abbrev TArg : Shape := ⟨5, ![2, 1, 128, 128, 128]⟩
abbrev T2xNV : Shape := ⟨2, ![2, 2097152]⟩

theorem hflat : TArg.ShapeCasts T2xNV := by decide

/-- An argument array read per batch element `n` and voxel `g` (its trailing axes flattened in row-major order). -/
def flat (X : FVec Ideal TArg .f32) : Fin 2 → Fin NV → EReal := fun n g => shapeCast T2xNV X hflat (ix2 n g)

/-- The sixteen bin centres' words: linspace(0, 1, 16) rounded to f32. -/
def lit : Fin 16 → BitVec 32 := fun
  | 0 => 0x00000000#32 | 1 => 0x3D888889#32 | 2 => 0x3E088889#32 | 3 => 0x3E4CCCCD#32 | 4 => 0x3E888889#32 | 5 => 0x3EAAAAAB#32 | 6 => 0x3ECCCCCD#32 | 7 => 0x3EEEEEEF#32
  | 8 => 0x3F088889#32 | 9 => 0x3F19999A#32 | 10 => 0x3F2AAAAB#32 | 11 => 0x3F3BBBBC#32 | 12 => 0x3F4CCCCD#32 | 13 => 0x3F5DDDDE#32 | 14 => 0x3F6EEEEF#32 | 15 => 0x3F800000#32
  | _ => 0#32

/-- The bin centres as extended reals. -/
def cs : Fin 16 → EReal := fun i => Ideal.ofBits .f32 (lit i)

/-- The loss of a batch of two pairs of volumes `a`, `b` (each a function of the batch element and the voxel) with bin
    centres `cs`. -/
def result (cs : Fin 16 → EReal) (a b : Fin 2 → Fin NV → EReal) : FVec Ideal T2 .f32 :=
  tail (jointV cs a b) (margV cs a) (margV cs b)

/-- The loss as a function of the two argument arrays. -/
def loss (X Y : FVec Ideal TArg .f32) : FVec Ideal T2 .f32 := result cs (flat X) (flat Y)

end Cert.Hist

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«118697_j43104291783207_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.KTile.lean ====
/-
  One voxel tile of the kernel body, entry by entry, over the extended reals.

  With the bin centres c read off the centres block and the tile's 32768 intensities x_q read off an input block,
  the weight matrix has entries w(p, q) = exp (K (x_q - c_p)^2); dividing each column by its sum over the 16 bins gives the
  soft assignments s(p, q).  The body adds to the joint block, at (p, r), the sum over the tile's voxels q of
  s_a(p, q) * s_b(r, q) (a matrix product against the transpose, into a zero accumulator; the narrowing of the operands
  is the identity on the extended reals), and to each marginal block, at p, the sum over q of s(p, q).
-/
import proofs.«118697_j43104291783207_1_alg».proof.Proof.Gen.KernelIdeal.Skeleton
import proofs.«118697_j43104291783207_1_alg».proof.Proof.Spec
import proofs.«118697_j43104291783207_1_alg».proof.Proof.LibColumn
import proofs.«118697_j43104291783207_1_alg».proof.Proof.LibRowReduce
import proofs.«118697_j43104291783207_1_alg».proof.Proof.LibColReduce
import proofs.«118697_j43104291783207_1_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.KV

open Cert.KernelIdeal Cert.KernelIdeal.Gen Cert.Hist

/-- The bin centres read off the 16 x 1 centres block. -/
def ctr (x2 : Vec Ideal S16x1 .f32) : Fin 16 → EReal := fun k => x2 (ix2 k (0 : Fin 1))

/-- The tile's intensities read off a 1 x 1 x 32768 input block. -/
def tileX (x : Vec Ideal S1x1x32768 .f32) : Fin 32768 → EReal := fun q => x (ix3 (0 : Fin 1) (0 : Fin 1) q)

/-- The tile's weight matrix. -/
def wmat (x2 : Vec Ideal S16x1 .f32) (x : Vec Ideal S1x1x32768 .f32) : FVec Ideal S16x32768 .f32 :=
  exp (mulf (broadcast S16x32768 (Scalar.ofBits .f32 0xC62FC800#32))
    (mulf (subf (broadcastTo S16x32768 (shapeCast S1x32768 x shapeCasts_S1x1x32768_S1x32768) broadcasts_S1x32768_S16x32768)
                (broadcastTo S16x32768 (k0_pay7 x2) broadcasts_S16x1_S16x32768))
          (subf (broadcastTo S16x32768 (shapeCast S1x32768 x shapeCasts_S1x1x32768_S1x32768) broadcasts_S1x32768_S16x32768)
                (broadcastTo S16x32768 (k0_pay7 x2) broadcasts_S16x1_S16x32768))))

/-- Entry (p, q) of the weight matrix is the weight of bin p at voxel q. -/
theorem wmat_apply (x2 : Vec Ideal S16x1 .f32) (x : Vec Ideal S1x1x32768 .f32) (p : Fin 16) (q : Fin 32768) :
    wmat x2 x (ix2 p q) = wt (ctr x2 p) (tileX x q) := by
  have hr : broadcastTo S16x32768 (shapeCast S1x32768 x shapeCasts_S1x1x32768_S1x32768) broadcasts_S1x32768_S16x32768 (ix2 p q)
      = x (ix3 (0 : Fin 1) (0 : Fin 1) q) :=
    (broadcastTo_1b_ab_apply _ _ p q).trans (shapeCast_1ab_ab_apply x _ (0 : Fin 1) q)
  have hc : broadcastTo S16x32768 (k0_pay7 x2) broadcasts_S16x1_S16x32768 (ix2 p q) = x2 (ix2 p (0 : Fin 1)) :=
    (Cert.LibColumn.broadcastTo_a1_ab_apply _ _ p q).trans (by unfold k0_pay7; rw [shapeCast_self])
  show Ideal.exp (Ideal.ofBits .f32 0xC62FC800#32 * ((_ - _) * (_ - _))) = _
  rw [hr, hc]
  rfl

/-- The soft assignment matrix of a tile: each column of the weight matrix over its sum. -/
def smat (x2 : Vec Ideal S16x1 .f32) (x : Vec Ideal S1x1x32768 .f32) : FVec Ideal S16x32768 .f32 :=
  divf (wmat x2 x) (broadcastTo S16x32768 (shapeCast S1x32768
    (multiReduction .add [0] S32768 (wmat x2 x) 0x00000000#32 reduces_S16x32768_S32768 (.inl rfl) rfl)
    shapeCasts_S32768_S1x32768) broadcasts_S1x32768_S16x32768)

theorem pay8_eq (x2 : Vec Ideal S16x1 .f32) (x : Vec Ideal S1x1x32768 .f32) : k0_pay8 (F := Ideal) x2 x = smat x2 x := rfl
theorem pay9_eq (x2 : Vec Ideal S16x1 .f32) (x : Vec Ideal S1x1x32768 .f32) : k0_pay9 (F := Ideal) x2 x = smat x2 x := rfl

/-- Entry (p, q) of the soft assignment matrix. -/
theorem smat_apply (x2 : Vec Ideal S16x1 .f32) (x : Vec Ideal S1x1x32768 .f32) (p : Fin 16) (q : Fin 32768) :
    smat x2 x (ix2 p q) = soft (ctr x2) (tileX x q) p := by
  have hs : broadcastTo S16x32768 (shapeCast S1x32768
      (multiReduction .add [0] S32768 (wmat x2 x) 0x00000000#32 reduces_S16x32768_S32768 (.inl rfl) rfl)
      shapeCasts_S32768_S1x32768) broadcasts_S1x32768_S16x32768 (ix2 p q) = ∑ k : Fin 16, wt (ctr x2 k) (tileX x q) :=
    ((broadcastTo_1b_ab_apply _ _ p q).trans (shapeCast_a_1a_apply _ _ (0 : Fin 1) q)).trans
      ((Cert.LibColReduce.colSum_f32 (wmat x2 x) reduces_S16x32768_S32768 (.inl rfl) rfl q).trans
        (Finset.sum_congr rfl fun k _ => wmat_apply x2 x k q))
  unfold smat
  refine (divf_apply _ _ _).trans ?_
  rw [wmat_apply, hs]
  rfl

/-- The joint block after a tile: at (p, r) what it held plus the tile's sum of products of soft assignments. -/
theorem pay1_apply (x2 : Vec Ideal S16x1 .f32) (x0 x1 : Vec Ideal S1x1x32768 .f32) (acc : Vec Ideal S1x16x16 .f32)
    (u : Fin 1) (p r : Fin 16) :
    k0_pay1 (F := Ideal) (k0_pay10 x2 x0 x1 acc) (ix3 u p r)
      = acc (ix3 (0 : Fin 1) p r) + ∑ q : Fin 32768, soft (ctr x2) (tileX x0 q) p * soft (ctr x2) (tileX x1 q) r := by
  unfold k0_pay1
  refine (shapeCast_ab_1ab_apply _ _ u p r).trans ?_
  unfold k0_pay10
  rw [pay8_eq, pay9_eq]
  refine (addf_apply _ _ _).trans ?_
  rw [shapeCast_1ab_ab_apply]
  refine congrArg (acc (ix3 (0 : Fin 1) p r) + ·) ?_
  refine (Cert.LibDotT.matmulT_zero_apply (R := 16) (K := 32768) (C := 16) dot_S16x32768_S16x32768_S16x16_1_1_0_0_n_n_wf none _ _ p r).trans ?_
  refine Finset.sum_congr rfl fun q _ => ?_
  rw [truncf_apply, truncf_apply, smat_apply, smat_apply]

/-- A marginal block after a tile: at p what it held plus the tile's row sum of the soft assignments. -/
theorem rowacc_apply (s : FVec Ideal S16x32768 .f32) (acc : Vec Ideal S1x16x1 .f32) (u z : Fin 1) (p : Fin 16) :
    shapeCast S1x16x1 (addf (shapeCast S16x1 acc shapeCasts_S1x16x1_S16x1)
        (shapeCast S16x1 (multiReduction .add [1] S16 s 0x00000000#32 reduces_S16x32768_S16 (.inl rfl) rfl) shapeCasts_S16_S16x1))
      shapeCasts_S16x1_S1x16x1 (ix3 u p z)
      = acc (ix3 (0 : Fin 1) p z) + ∑ q : Fin 32768, s (ix2 p q) := by
  refine (shapeCast_ab_1ab_apply _ _ u p z).trans ?_
  refine (addf_apply _ _ _).trans ?_
  rw [shapeCast_1ab_ab_apply, Cert.LibColumn.shapeCast_a_a1_apply]
  exact congrArg (acc (ix3 (0 : Fin 1) p z) + ·)
    (Cert.LibRowReduce.rowSum_apply s 0x00000000#32 reduces_S16x32768_S16 (.inl rfl) rfl p)

theorem pay2_apply (x2 : Vec Ideal S16x1 .f32) (x0 : Vec Ideal S1x1x32768 .f32) (acc : Vec Ideal S1x16x1 .f32) (u z : Fin 1) (p : Fin 16) :
    k0_pay2 (F := Ideal) (k0_pay8 x2 x0) acc (ix3 u p z)
      = acc (ix3 (0 : Fin 1) p z) + ∑ q : Fin 32768, soft (ctr x2) (tileX x0 q) p := by
  rw [pay8_eq]
  unfold k0_pay2
  refine (rowacc_apply (smat x2 x0) acc u z p).trans ?_
  exact congrArg (acc (ix3 (0 : Fin 1) p z) + ·) (Finset.sum_congr rfl fun q _ => smat_apply x2 x0 p q)

theorem pay3_apply (x2 : Vec Ideal S16x1 .f32) (x1 : Vec Ideal S1x1x32768 .f32) (acc : Vec Ideal S1x16x1 .f32) (u z : Fin 1) (p : Fin 16) :
    k0_pay3 (F := Ideal) (k0_pay9 x2 x1) acc (ix3 u p z)
      = acc (ix3 (0 : Fin 1) p z) + ∑ q : Fin 32768, soft (ctr x2) (tileX x1 q) p := by
  rw [pay9_eq]
  unfold k0_pay3
  refine (rowacc_apply (smat x2 x1) acc u z p).trans ?_
  exact congrArg (acc (ix3 (0 : Fin 1) p z) + ·) (Finset.sum_congr rfl fun q _ => smat_apply x2 x1 p q)

/-- The zero blocks the first tile stores hold the extended real 0. -/
theorem pay4_apply (j : S1x16x16.Idx) : k0_pay4 (F := Ideal) j = 0 := Ideal.ofBits_zero_f32
theorem pay5_apply (j : S1x16x1.Idx) : k0_pay5 (F := Ideal) j = 0 := Ideal.ofBits_zero_f32
theorem pay6_apply (j : S1x16x1.Idx) : k0_pay6 (F := Ideal) j = 0 := Ideal.ofBits_zero_f32

end Cert.KernelIdeal.KV

end
-- ==== Proof.KBlocks.lean ====
/-
  The blocks the kernel's windows read and write, by coordinates.

  The grid has 128 points: point t works on batch element t / 64 and voxel tile t % 64.  At point t the two input blocks
  are the 32768 voxels (t % 64) * 32768 .. of row t / 64 of the two flattened volumes, the centres block is the whole
  16 x 1 table, and the three output blocks are slab t / 64 of the three result arrays.
-/
import proofs.«118697_j43104291783207_1_alg».proof.Proof.Gen.KernelIdeal.Frame
import Idealize.ShloMosaic.Lib.Pipeline.Value
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx

variable {F : FTy → Type} [FloatOps F]
variable (m : (ℓ : Loc nD τ sig) → Buf (Elt F) ℓ)

/-- The printed index maps, decided once over the grid. -/
theorem idx_facts : ∀ t : Fin cfg0.N,
    (win0_0.index t (0 : Fin 3) = t.val / 64 ∧ win0_0.index t (1 : Fin 3) = 0 ∧ win0_0.index t (2 : Fin 3) = t.val % 64)
    ∧ (win0_1.index t (0 : Fin 3) = t.val / 64 ∧ win0_1.index t (1 : Fin 3) = 0 ∧ win0_1.index t (2 : Fin 3) = t.val % 64)
    ∧ (win0_2.index t (0 : Fin 2) = 0 ∧ win0_2.index t (1 : Fin 2) = 0)
    ∧ (win0_3.index t (0 : Fin 3) = t.val / 64 ∧ win0_3.index t (1 : Fin 3) = 0 ∧ win0_3.index t (2 : Fin 3) = 0)
    ∧ (win0_4.index t (0 : Fin 3) = t.val / 64 ∧ win0_4.index t (1 : Fin 3) = 0 ∧ win0_4.index t (2 : Fin 3) = 0)
    ∧ (win0_5.index t (0 : Fin 3) = t.val / 64 ∧ win0_5.index t (1 : Fin 3) = 0 ∧ win0_5.index t (2 : Fin 3) = 0) :=
  (by decide +kernel : ∀ t : Fin grid0.N, _)

/-- The first volume's block at point t: voxel y of the tile is voxel (t % 64) * 32768 + y of row t / 64. -/
theorem blk0_apply (c : Dev nD) (t : Fin cfg0.N) (y : S1x1x32768.Idx) (i : S2x1x2097152.Idx)
    (h0 : (i 0).val = t.val / 64) (h1 : (i 1).val = 0) (h2 : (i 2).val = (t.val % 64) * 32768 + (y 2).val) :
    (iblk m c 0 t : Vec F S1x1x32768 .f32) y = V m c main_v0 i := by
  obtain ⟨⟨e0, e1, e2⟩, -⟩ := idx_facts t
  have hy0 : (y 0).val < 1 := (y 0).isLt
  have hy1 : (y 1).val < 1 := (y 1).isLt
  unfold iblk
  rw [View.read_apply]
  show V m c main_v0 (((cfg0.win 0).blk t).view.emb y) = V m c main_v0 i
  refine congrArg (V m c main_v0) (funext fun a => Fin.ext ?_)
  match a with
  | ⟨0, _⟩ => show win0_0.index t (0 : Fin 3) * 1 + 1 * (y 0).val = (i 0).val; omega
  | ⟨1, _⟩ => show win0_0.index t (1 : Fin 3) * 1 + 1 * (y 1).val = (i 1).val; omega
  | ⟨2, _⟩ => show win0_0.index t (2 : Fin 3) * 32768 + 1 * (y 2).val = (i 2).val; omega

/-- The second volume's block at point t. -/
theorem blk1_apply (c : Dev nD) (t : Fin cfg0.N) (y : S1x1x32768.Idx) (i : S2x1x2097152.Idx)
    (h0 : (i 0).val = t.val / 64) (h1 : (i 1).val = 0) (h2 : (i 2).val = (t.val % 64) * 32768 + (y 2).val) :
    (iblk m c 1 t : Vec F S1x1x32768 .f32) y = V m c main_v1 i := by
  obtain ⟨-, ⟨e0, e1, e2⟩, -⟩ := idx_facts t
  have hy0 : (y 0).val < 1 := (y 0).isLt
  have hy1 : (y 1).val < 1 := (y 1).isLt
  unfold iblk
  rw [View.read_apply]
  show V m c main_v1 (((cfg0.win 1).blk t).view.emb y) = V m c main_v1 i
  refine congrArg (V m c main_v1) (funext fun a => Fin.ext ?_)
  match a with
  | ⟨0, _⟩ => show win0_1.index t (0 : Fin 3) * 1 + 1 * (y 0).val = (i 0).val; omega
  | ⟨1, _⟩ => show win0_1.index t (1 : Fin 3) * 1 + 1 * (y 1).val = (i 1).val; omega
  | ⟨2, _⟩ => show win0_1.index t (2 : Fin 3) * 32768 + 1 * (y 2).val = (i 2).val; omega

/-- The centres block at any point is the whole centres table. -/
theorem blk2_apply (c : Dev nD) (t : Fin cfg0.N) (y : S16x1.Idx) :
    (iblk m c 2 t : Vec F S16x1 .f32) y = V m c main_v2 y := by
  obtain ⟨-, -, ⟨e0, e1⟩, -⟩ := idx_facts t
  unfold iblk
  rw [View.read_apply]
  show V m c main_v2 (((cfg0.win 2).blk t).view.emb y) = V m c main_v2 y
  refine congrArg (V m c main_v2) (funext fun a => Fin.ext ?_)
  match a with
  | ⟨0, _⟩ => show win0_2.index t (0 : Fin 2) * 16 + 1 * (y 0).val = (y 0).val; omega
  | ⟨1, _⟩ => show win0_2.index t (1 : Fin 2) * 1 + 1 * (y 1).val = (y 1).val; omega

end Cert.KernelIdeal.KV

end
-- ==== Proof.KAcc.lean ====
/-
  The three output blocks after every grid point, as running sums.

  Within a batch element the body resets its output blocks at tile 0 and adds one tile's contribution at each of the
  tiles 0 .. 63: after tile j of batch element b the joint block holds, at (p, r), 0 plus the sum over the tiles
  s = 0 .. j of the tile's sum over voxels of the product of the two soft assignments, and each marginal block, at p,
  0 plus the sum over those tiles of the tile's sum of soft assignments.  Addition on the extended reals is
  associative and commutative, so the order of the tiles does not matter.
-/
import proofs.«118697_j43104291783207_1_alg».proof.Proof.Gen.KernelIdeal.Frame
import proofs.«118697_j43104291783207_1_alg».proof.Proof.KPieces
import proofs.«118697_j43104291783207_1_alg».proof.Proof.KTile
import proofs.«118697_j43104291783207_1_alg».proof.Proof.KBlocks
import Idealize.ShloMosaic.Lib.Pipeline.Value
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

open scoped BigOperators
open Idealize.ShloMosaic.ValueIdx Cert.Hist

variable (m : (ℓ : Loc nD τ sig) → Buf (Elt Ideal) ℓ) (c : Dev nD)

/-- The input blocks of a point, at their literal shapes. -/
def bx0 (t : Fin cfg0.N) : Vec Ideal S1x1x32768 .f32 := iblk m c 0 t
def bx1 (t : Fin cfg0.N) : Vec Ideal S1x1x32768 .f32 := iblk m c 1 t
def bx2 (t : Fin cfg0.N) : Vec Ideal S16x1 .f32 := iblk m c 2 t

/-- The joint block's step at point n from what the point before left, and its reset value (the step from zero). -/
def g3 (n : Nat) (h : n < cfg0.N) (acc : Vec Ideal S1x16x16 .f32) : Vec Ideal S1x16x16 .f32 :=
  k0_pay1 (k0_pay10 (bx2 m c ⟨n, h⟩) (bx0 m c ⟨n, h⟩) (bx1 m c ⟨n, h⟩) acc)
def a3 (n : Nat) (h : n < cfg0.N) : Vec Ideal S1x16x16 .f32 := g3 m c n h (k0_pay4 (F := Ideal))
/-- The same for the two marginal blocks. -/
def g4 (n : Nat) (h : n < cfg0.N) (acc : Vec Ideal S1x16x1 .f32) : Vec Ideal S1x16x1 .f32 :=
  k0_pay2 (k0_pay8 (bx2 m c ⟨n, h⟩) (bx0 m c ⟨n, h⟩)) acc
def a4 (n : Nat) (h : n < cfg0.N) : Vec Ideal S1x16x1 .f32 := g4 m c n h (k0_pay5 (F := Ideal))
def g5 (n : Nat) (h : n < cfg0.N) (acc : Vec Ideal S1x16x1 .f32) : Vec Ideal S1x16x1 .f32 :=
  k0_pay3 (k0_pay9 (bx2 m c ⟨n, h⟩) (bx1 m c ⟨n, h⟩)) acc
def a5 (n : Nat) (h : n < cfg0.N) : Vec Ideal S1x16x1 .f32 := g5 m c n h (k0_pay6 (F := Ideal))

theorem reset3 (n : Nat) (h : n < cfg0.N) (hm : n % 64 = 0) : (outsAt0 m c n h).1 = a3 m c n h :=
  (congrArg Prod.fst (outsAt0_A m c ⟨n, h⟩ hm)).trans
    (outA3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hm) (iblk m c 0 ⟨n, h⟩) (iblk m c 1 ⟨n, h⟩) (iblk m c 2 ⟨n, h⟩))
theorem reset4 (n : Nat) (h : n < cfg0.N) (hm : n % 64 = 0) : (outsAt0 m c n h).2.1 = a4 m c n h :=
  (congrArg (fun x => x.2.1) (outsAt0_A m c ⟨n, h⟩ hm)).trans
    (outA4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hm) (iblk m c 0 ⟨n, h⟩) (iblk m c 1 ⟨n, h⟩) (iblk m c 2 ⟨n, h⟩))
theorem reset5 (n : Nat) (h : n < cfg0.N) (hm : n % 64 = 0) : (outsAt0 m c n h).2.2 = a5 m c n h :=
  (congrArg (fun x => x.2.2) (outsAt0_A m c ⟨n, h⟩ hm)).trans
    (outA5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hm) (iblk m c 0 ⟨n, h⟩) (iblk m c 1 ⟨n, h⟩) (iblk m c 2 ⟨n, h⟩))

theorem step3 (n : Nat) (h : n + 1 < cfg0.N) (hm : ¬(n + 1) % 64 = 0) :
    (outsAt0 m c (n + 1) h).1 = g3 m c (n + 1) h (outsAt0 m c n (Nat.lt_of_succ_lt h)).1 :=
  (congrArg Prod.fst (outsAt0_B m c (⟨n + 1, h⟩ : Fin cfg0.N) hm)).trans
    (outB3 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (fun hh => hm ((hcond0_0 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2)
theorem step4 (n : Nat) (h : n + 1 < cfg0.N) (hm : ¬(n + 1) % 64 = 0) :
    (outsAt0 m c (n + 1) h).2.1 = g4 m c (n + 1) h (outsAt0 m c n (Nat.lt_of_succ_lt h)).2.1 :=
  (congrArg (fun x => x.2.1) (outsAt0_B m c (⟨n + 1, h⟩ : Fin cfg0.N) hm)).trans
    (outB4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (fun hh => hm ((hcond0_0 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2)
theorem step5 (n : Nat) (h : n + 1 < cfg0.N) (hm : ¬(n + 1) % 64 = 0) :
    (outsAt0 m c (n + 1) h).2.2 = g5 m c (n + 1) h (outsAt0 m c n (Nat.lt_of_succ_lt h)).2.2 :=
  (congrArg (fun x => x.2.2) (outsAt0_B m c (⟨n + 1, h⟩ : Fin cfg0.N) hm)).trans
    (outB5 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (fun hh => hm ((hcond0_0 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).1 (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2)

theorem run_lt (t : Fin cfg0.N) : 64 * (t.val / 64) + t.val % 64 < cfg0.N := by
  rw [Nat.div_add_mod]; exact t.isLt

/-- What each output block holds after point t: the fold over its batch element's tiles up to t. -/
theorem fold3 (t : Fin cfg0.N) : (outsAt0 m c t.val t.isLt).1
    = Pipeline.accAt (a3 m c) (g3 m c) (64 * (t.val / 64)) (t.val % 64) (run_lt t) :=
  Pipeline.eq_accAt_of_mod (fun n h => (outsAt0 m c n h).1) 64 (a3 m c) (g3 m c) (reset3 m c) (step3 m c)
    (by decide) t.val t.isLt (run_lt t)
theorem fold4 (t : Fin cfg0.N) : (outsAt0 m c t.val t.isLt).2.1
    = Pipeline.accAt (a4 m c) (g4 m c) (64 * (t.val / 64)) (t.val % 64) (run_lt t) :=
  Pipeline.eq_accAt_of_mod (fun n h => (outsAt0 m c n h).2.1) 64 (a4 m c) (g4 m c) (reset4 m c) (step4 m c)
    (by decide) t.val t.isLt (run_lt t)
theorem fold5 (t : Fin cfg0.N) : (outsAt0 m c t.val t.isLt).2.2
    = Pipeline.accAt (a5 m c) (g5 m c) (64 * (t.val / 64)) (t.val % 64) (run_lt t) :=
  Pipeline.eq_accAt_of_mod (fun n h => (outsAt0 m c n h).2.2) 64 (a5 m c) (g5 m c) (reset5 m c) (step5 m c)
    (by decide) t.val t.isLt (run_lt t)

/-- Point n's contribution to the joint block at an index: the tile's sum over voxels of the product of the two soft
    assignments (zero past the grid, where it is never used). -/
def tile3 (n : Nat) (i : S1x16x16.Idx) : EReal :=
  if h : n < cfg0.N then ∑ q : Fin 32768, soft (ctr (bx2 m c ⟨n, h⟩)) (tileX (bx0 m c ⟨n, h⟩) q) (i 1)
    * soft (ctr (bx2 m c ⟨n, h⟩)) (tileX (bx1 m c ⟨n, h⟩) q) (i 2) else 0
/-- Point n's contribution to a marginal block. -/
def tile4 (n : Nat) (i : S1x16x1.Idx) : EReal :=
  if h : n < cfg0.N then ∑ q : Fin 32768, soft (ctr (bx2 m c ⟨n, h⟩)) (tileX (bx0 m c ⟨n, h⟩) q) (i 1) else 0
def tile5 (n : Nat) (i : S1x16x1.Idx) : EReal :=
  if h : n < cfg0.N then ∑ q : Fin 32768, soft (ctr (bx2 m c ⟨n, h⟩)) (tileX (bx1 m c ⟨n, h⟩) q) (i 1) else 0

theorem g3_apply (n : Nat) (h : n < cfg0.N) (acc : Vec Ideal S1x16x16 .f32) (i : S1x16x16.Idx) :
    g3 m c n h acc i = acc i + tile3 m c n i := by
  obtain ⟨u, p, r, rfl⟩ : ∃ (u : Fin 1) (p r : Fin 16), i = ix3 u p r := ⟨i 0, i 1, i 2, eq_ix3 i⟩
  obtain rfl : u = 0 := Subsingleton.elim _ _
  unfold g3 tile3
  rw [dif_pos h]
  exact pay1_apply (bx2 m c ⟨n, h⟩) (bx0 m c ⟨n, h⟩) (bx1 m c ⟨n, h⟩) acc 0 p r
theorem g4_apply (n : Nat) (h : n < cfg0.N) (acc : Vec Ideal S1x16x1 .f32) (i : S1x16x1.Idx) :
    g4 m c n h acc i = acc i + tile4 m c n i := by
  obtain ⟨u, p, z, rfl⟩ : ∃ (u : Fin 1) (p : Fin 16) (z : Fin 1), i = ix3 u p z := ⟨i 0, i 1, i 2, eq_ix3 i⟩
  obtain rfl : u = 0 := Subsingleton.elim _ _
  unfold g4 tile4
  rw [dif_pos h]
  exact pay2_apply (bx2 m c ⟨n, h⟩) (bx0 m c ⟨n, h⟩) acc 0 z p
theorem g5_apply (n : Nat) (h : n < cfg0.N) (acc : Vec Ideal S1x16x1 .f32) (i : S1x16x1.Idx) :
    g5 m c n h acc i = acc i + tile5 m c n i := by
  obtain ⟨u, p, z, rfl⟩ : ∃ (u : Fin 1) (p : Fin 16) (z : Fin 1), i = ix3 u p z := ⟨i 0, i 1, i 2, eq_ix3 i⟩
  obtain rfl : u = 0 := Subsingleton.elim _ _
  unfold g5 tile5
  rw [dif_pos h]
  exact pay3_apply (bx2 m c ⟨n, h⟩) (bx1 m c ⟨n, h⟩) acc 0 z p

theorem a3_apply (n : Nat) (h : n < cfg0.N) (i : S1x16x16.Idx) : a3 m c n h i = 0 + tile3 m c n i :=
  (g3_apply m c n h _ i).trans (by rw [pay4_apply])
theorem a4_apply (n : Nat) (h : n < cfg0.N) (i : S1x16x1.Idx) : a4 m c n h i = 0 + tile4 m c n i :=
  (g4_apply m c n h _ i).trans (by rw [pay5_apply])
theorem a5_apply (n : Nat) (h : n < cfg0.N) (i : S1x16x1.Idx) : a5 m c n h i = 0 + tile5 m c n i :=
  (g5_apply m c n h _ i).trans (by rw [pay6_apply])

/-- The folds at an index: zero plus the sum of the contributions of the tiles so far. -/
theorem acc3_apply (q j : Nat) (hj : j ≤ 63) (h : 64 * q + j < cfg0.N) (i : S1x16x16.Idx) :
    Pipeline.accAt (a3 m c) (g3 m c) (64 * q) j h i = 0 + ∑ s ∈ Finset.range (j + 1), tile3 m c (64 * q + s) i :=
  Pipeline.accAt_add_apply (ι := S1x16x16.Idx) (β := EReal) (a3 m c) (g3 m c) (fun _ => 0) (tile3 m c) (64 * q) 63
    (fun h i => a3_apply m c _ h i) (fun n h acc i _ _ => g3_apply m c n h acc i) j hj h i
theorem acc4_apply (q j : Nat) (hj : j ≤ 63) (h : 64 * q + j < cfg0.N) (i : S1x16x1.Idx) :
    Pipeline.accAt (a4 m c) (g4 m c) (64 * q) j h i = 0 + ∑ s ∈ Finset.range (j + 1), tile4 m c (64 * q + s) i :=
  Pipeline.accAt_add_apply (ι := S1x16x1.Idx) (β := EReal) (a4 m c) (g4 m c) (fun _ => 0) (tile4 m c) (64 * q) 63
    (fun h i => a4_apply m c _ h i) (fun n h acc i _ _ => g4_apply m c n h acc i) j hj h i
theorem acc5_apply (q j : Nat) (hj : j ≤ 63) (h : 64 * q + j < cfg0.N) (i : S1x16x1.Idx) :
    Pipeline.accAt (a5 m c) (g5 m c) (64 * q) j h i = 0 + ∑ s ∈ Finset.range (j + 1), tile5 m c (64 * q + s) i :=
  Pipeline.accAt_add_apply (ι := S1x16x1.Idx) (β := EReal) (a5 m c) (g5 m c) (fun _ => 0) (tile5 m c) (64 * q) 63
    (fun h i => a5_apply m c _ h i) (fun n h acc i _ _ => g5_apply m c n h acc i) j hj h i

end Cert.KernelIdeal.KV

end
-- ==== Proof.KRegion.lean ====
/-
  The arrays the region finds, by coordinates.

  Before the region the host flattens each argument volume to [2, 1, 2097152] and sets the table of bin centres up as
  a 16 x 1 column.  Read at (n, 0, g) the flattened volume is the argument at batch element n and voxel g in row-major
  order, and the column at (k, 0) is the k-th centre word.
-/
import proofs.«118697_j43104291783207_1_alg».proof.Proof.Gen.KernelIdeal.Frame
import proofs.«118697_j43104291783207_1_alg».proof.Proof.Spec
import proofs.«118697_j43104291783207_1_alg».proof.Proof.LibColumn
import Idealize.ShloMosaic.Lib.Pipeline.Value
import Idealize.ShloMosaic.Lib.StableHlo.Run
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx Idealize.ShloMosaic.StableHlo Cert.Hist

variable (m : (ℓ : Loc nD τ sig) → Buf (Elt Ideal) ℓ) (c : Dev nD)

/-- The bin centres, the first and the second volume as the region finds them, by coordinates. -/
def kcs : Fin 16 → EReal := fun k => V m c main_v2 (ix2 k (0 : Fin 1))
def ka : Fin 2 → Fin NV → EReal := fun n g => V m c main_v0 (ix3 n (0 : Fin 1) g)
def kb : Fin 2 → Fin NV → EReal := fun n g => V m c main_v1 (ix3 n (0 : Fin 1) g)

theorem V_v0 : (V m c main_v0 : S2x1x2097152.Idx → EReal)
    = shapeCast S2x1x2097152 (m ((c : Thread nD τ).loc main_arg0)) shapeCasts_S2x1x128x128x128_S2x1x2097152 := by
  show StableHlo.after hostOps0 (fun b => m (c, b)) (Proc.devRef .tc main_v0) = _
  after_results
  rfl

theorem V_v1 : (V m c main_v1 : S2x1x2097152.Idx → EReal)
    = shapeCast S2x1x2097152 (m ((c : Thread nD τ).loc main_arg1)) shapeCasts_S2x1x128x128x128_S2x1x2097152 := by
  show StableHlo.after hostOps0 (fun b => m (c, b)) (Proc.devRef .tc main_v1) = _
  after_results
  rfl

theorem V_v2 : (V m c main_v2 : S16x1.Idx → EReal)
    = shapeCast S16x1 (fun i : S16.Idx => FloatOps.ofBits (F := Ideal) .f32 (lit0 (S16.rowMajor i))) shapeCasts_S16_S16x1 := by
  show StableHlo.after hostOps0 (fun b => m (c, b)) (Proc.devRef .tc main_v2) = _
  after_results
  rfl

/-- The two flattenings of an argument read the same voxel: (n, 0, g) and (n, g) have one row-major position. -/
theorem cast_flat (X : FVec Ideal TArg .f32) (h : TArg.ShapeCasts S2x1x2097152) (n : Fin 2) (g : Fin NV) :
    shapeCast S2x1x2097152 X h (ix3 n (0 : Fin 1) g) = flat X n g := by
  unfold flat
  refine shapeCast_apply X h (ix3 n (0 : Fin 1) g) (Shape.reshapeEquiv hflat (ix2 n g)) ?_
  rw [Shape.rowMajor_reshapeEquiv, Shape.rowMajor_val_two, Shape.rowMajor_val_three]
  show n.val * 2097152 + g.val = (n.val * 1 + 0) * 2097152 + g.val
  omega

theorem ka_eq : ka m c = flat (m ((c : Thread nD τ).loc main_arg0)) := by
  funext n g
  unfold ka
  rw [V_v0]
  exact cast_flat _ _ n g

theorem kb_eq : kb m c = flat (m ((c : Thread nD τ).loc main_arg1)) := by
  funext n g
  unfold kb
  rw [V_v1]
  exact cast_flat _ _ n g

theorem lit_eq : ∀ k : Fin 16, lit0 k = Cert.Hist.lit k := by decide

theorem kcs_eq : kcs m c = cs := by
  funext k
  unfold kcs
  rw [V_v2, Cert.LibColumn.shapeCast_a_a1_apply]
  have hk : S16.rowMajor (ix1 k) = k := Fin.ext (Shape.rowMajor_val_one (ix1 k))
  show Ideal.ofBits .f32 (lit0 (S16.rowMajor (ix1 k))) = Ideal.ofBits .f32 (Cert.Hist.lit k)
  rw [hk, lit_eq]

end Cert.KernelIdeal.KV

end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.KOut.lean ====
/-
  The three result arrays after the region.

  The 64 tiles of batch element n partition its 2097152 voxels into consecutive runs of 32768, so the 64 tile sums of a
  batch element add up to the sum over all its voxels: the joint block its last tile writes back holds the joint soft
  histogram of the batch element, the marginal blocks its two marginal histograms.  The write-backs of the two batch
  elements' last tiles cover the result arrays.
-/
import proofs.«118697_j43104291783207_1_alg».proof.Proof.Gen.KernelIdeal.Frame
import proofs.«118697_j43104291783207_1_alg».proof.Proof.KAcc
import proofs.«118697_j43104291783207_1_alg».proof.Proof.KRegion
import proofs.«118697_j43104291783207_1_alg».proof.Proof.LibSumBlocks
import Idealize.ShloMosaic.Lib.Pipeline.Value
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

open scoped BigOperators
open Idealize.ShloMosaic.ValueIdx Cert.Hist

variable (m : (ℓ : Loc nD τ sig) → Buf (Elt Ideal) ℓ) (c : Dev nD)

/-- The centres block at any point holds the bin centres. -/
theorem ctr_bx2 (t : Fin cfg0.N) : ctr (bx2 m c t) = kcs m c :=
  funext fun k => blk2_apply m c t (ix2 k (0 : Fin 1))

/-- Voxel v of the tile of point t is voxel (t % 64) * 32768 + v of batch element t / 64. -/
theorem tileX_bx0 (t : Fin cfg0.N) (v : Fin 32768) (n : Fin 2) (g : Fin NV) (hn : n.val = t.val / 64)
    (hg : g.val = (t.val % 64) * 32768 + v.val) : tileX (bx0 m c t) v = ka m c n g :=
  blk0_apply m c t (ix3 (0 : Fin 1) (0 : Fin 1) v) (ix3 n (0 : Fin 1) g) hn rfl hg
theorem tileX_bx1 (t : Fin cfg0.N) (v : Fin 32768) (n : Fin 2) (g : Fin NV) (hn : n.val = t.val / 64)
    (hg : g.val = (t.val % 64) * 32768 + v.val) : tileX (bx1 m c t) v = kb m c n g :=
  blk1_apply m c t (ix3 (0 : Fin 1) (0 : Fin 1) v) (ix3 n (0 : Fin 1) g) hn rfl hg

/-- Voxel g's term of the joint sum of batch element n (zero past the last voxel, where it is never used). -/
def jterm (n : Fin 2) (i : S1x16x16.Idx) (g : ℕ) : EReal :=
  if h : g < NV then soft (kcs m c) (ka m c n ⟨g, h⟩) (i 1) * soft (kcs m c) (kb m c n ⟨g, h⟩) (i 2) else 0

/-- The 64 tiles of a batch element make up its voxels: the tile sums add up to the joint histogram. -/
theorem tiles3_sum (n : Fin 2) (i : S1x16x16.Idx) :
    ∑ s ∈ Finset.range 64, tile3 m c (64 * n.val + s) i = joint (kcs m c) (ka m c n) (kb m c n) (i 1) (i 2) := by
  have hN : cfg0.N = 128 := N_0
  have hn : n.val < 2 := n.isLt
  have key : ∀ s ∈ Finset.range 64, tile3 m c (64 * n.val + s) i
      = ∑ v : Fin 32768, jterm m c n i (32768 * s + v.val) := by
    intro s hs
    have hs' : s < 64 := Finset.mem_range.mp hs
    have hlt : 64 * n.val + s < cfg0.N := by omega
    unfold tile3
    rw [dif_pos hlt]
    refine Finset.sum_congr rfl fun v _ => ?_
    have hv : v.val < 32768 := v.isLt
    have hg : 32768 * s + v.val < NV := by show _ < 2097152; omega
    unfold jterm
    rw [dif_pos hg, ctr_bx2,
      tileX_bx0 m c ⟨64 * n.val + s, hlt⟩ v n ⟨32768 * s + v.val, hg⟩
        (by show n.val = (64 * n.val + s) / 64; omega)
        (by show 32768 * s + v.val = (64 * n.val + s) % 64 * 32768 + v.val; omega),
      tileX_bx1 m c ⟨64 * n.val + s, hlt⟩ v n ⟨32768 * s + v.val, hg⟩
        (by show n.val = (64 * n.val + s) / 64; omega)
        (by show 32768 * s + v.val = (64 * n.val + s) % 64 * 32768 + v.val; omega)]
  refine (Finset.sum_congr rfl key).trans ((Cert.Hamming.sum_blocks 64 32768 (jterm m c n i)).trans ?_)
  unfold joint
  exact Finset.sum_congr rfl fun g _ => by unfold jterm; exact dif_pos g.isLt

/-- The joint array the region leaves. -/
def G3 : Buf (Elt Ideal) ((c : Thread nD τ).loc main_v3_0) := jointV (kcs m c) (ka m c) (kb m c)

theorem emb3 (t : Fin cfg0.N) (y : S1x16x16.Idx) (i : S2x16x16.Idx) (h0 : (i 0).val = t.val / 64)
    (h1 : (i 1).val = (y 1).val) (h2 : (i 2).val = (y 2).val) : ((cfg0.win 3).blk t).view.emb y = i := by
  obtain ⟨-, -, -, ⟨e0, e1, e2⟩, -⟩ := idx_facts t
  have hy0 : (y 0).val < 1 := (y 0).isLt
  refine funext fun a => Fin.ext ?_
  match a with
  | ⟨0, _⟩ => show win0_3.index t (0 : Fin 3) * 1 + 1 * (y 0).val = (i 0).val; omega
  | ⟨1, _⟩ => show win0_3.index t (1 : Fin 3) * 16 + 1 * (y 1).val = (i 1).val; omega
  | ⟨2, _⟩ => show win0_3.index t (2 : Fin 3) * 16 + 1 * (y 2).val = (i 2).val; omega

/-- Reading a joint block: the write-back takes the whole block, and a block of an array reads the array at the block's
    embedded index (both for any contents). -/
theorem cut3 (t : Fin cfg0.N) (y : S1x16x16.Idx) (X : S1x16x16.Idx → EReal) :
    (cfg0.win 3).cut (grid0.coords t) X y = X y := rfl
theorem read3 (t : Fin cfg0.N) (G : Buf (Elt Ideal) ((c : Thread nD τ).loc main_v3_0)) (y : S1x16x16.Idx) :
    ((cfg0.win 3).blk t).view.read (Elt Ideal) G y = G (((cfg0.win 3).blk t).view.emb y) := rfl
theorem G3_apply (q : Fin 2) (p r : Fin 16) :
    G3 m c (ix3 q p r) = joint (kcs m c) (ka m c q) (kb m c q) p r := rfl

/-- What the last tile of a batch element writes back is that batch element's slab of the joint array. -/
theorem flushed3 (t : Fin cfg0.N) (hf : (cfg0.win 3).flush t = true) :
    (dats m 0 c).flushed 3 t = ((cfg0.win 3).blk t).view.read (Elt Ideal) (G3 m c) := by
  have h63 : t.val % 64 = 63 := (flush0_3 t).mp hf
  have hN : t.val < 128 := lt_of_lt_of_eq t.isLt (show cfg0.N = 128 from N_0)
  show (cfg0.win 3).cut (grid0.coords t) ((dats m 0 c).after 3 t) = _
  rw [after0_3, fold3]
  refine funext fun (y : S1x16x16.Idx) => ?_
  refine (cut3 t y _).trans ?_
  refine Eq.trans ?_ (read3 c t (G3 m c) y).symm
  rw [emb3 t y (ix3 (⟨t.val / 64, by omega⟩ : Fin 2) (y 1 : Fin 16) (y 2 : Fin 16)) rfl rfl rfl]
  refine Eq.trans ?_ (G3_apply m c ⟨t.val / 64, by omega⟩ (y 1) (y 2)).symm
  rw [acc3_apply m c (t.val / 64) (t.val % 64) (by omega) (run_lt t) y, zero_add, h63]
  exact tiles3_sum m c ⟨t.val / 64, by omega⟩ y

theorem mem_blk3 (t : Fin cfg0.N) (i : S2x16x16.Idx) :
    i ∈ ((cfg0.win 3).blk t).view.set ↔ ∀ a : Fin 3, win0_3.index t a * S1x16x16.size a ≤ (i a).val
      ∧ (i a).val < win0_3.index t a * S1x16x16.size a + S1x16x16.size a := by
  show i ∈ ((View.whole main_v3_0).slice (win0_3.rect t)).set ↔ _
  rw [View.set_slice_whole, Rect.mem_set_unit]
  exact Iff.rfl

/-- Every entry of the joint array lies in the slab its batch element's last tile writes back. -/
theorem cover3 (i : S2x16x16.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 16 := (i 2).isLt
  have hN : cfg0.N = 128 := N_0
  have hlt : 64 * (i 0).val + 63 < cfg0.N := by omega
  refine ⟨⟨64 * (i 0).val + 63, hlt⟩, (flush0_3 _).mpr (by show (64 * (i 0).val + 63) % 64 = 63; omega), ?_⟩
  rw [mem_blk3]
  obtain ⟨-, -, -, ⟨e0, e1, e2⟩, -⟩ := idx_facts ⟨64 * (i 0).val + 63, hlt⟩
  have e0' : win0_3.index ⟨64 * (i 0).val + 63, hlt⟩ (0 : Fin 3) = (64 * (i 0).val + 63) / 64 := e0
  intro a
  match a with
  | ⟨0, _⟩ =>
    show win0_3.index ⟨64 * (i 0).val + 63, hlt⟩ (0 : Fin 3) * 1 ≤ (i 0).val
      ∧ (i 0).val < win0_3.index ⟨64 * (i 0).val + 63, hlt⟩ (0 : Fin 3) * 1 + 1
    omega
  | ⟨1, _⟩ =>
    show win0_3.index ⟨64 * (i 0).val + 63, hlt⟩ (1 : Fin 3) * 16 ≤ (i 1).val
      ∧ (i 1).val < win0_3.index ⟨64 * (i 0).val + 63, hlt⟩ (1 : Fin 3) * 16 + 16
    omega
  | ⟨2, _⟩ =>
    show win0_3.index ⟨64 * (i 0).val + 63, hlt⟩ (2 : Fin 3) * 16 ≤ (i 2).val
      ∧ (i 2).val < win0_3.index ⟨64 * (i 0).val + 63, hlt⟩ (2 : Fin 3) * 16 + 16
    omega

/-- The joint array after the run. -/
theorem final3 : (dats m 0 c).arrAt 3 cfg0.N = G3 m c :=
  (dats m 0 c).arrAt_eq_of_cover 3 (G3 m c) (flushed3 m c) (cover3)

/-- Voxel g's term of the marginal sum of batch element n (zero past the last voxel, where it is never used). -/
def mterm4 (n : Fin 2) (i : S1x16x1.Idx) (g : ℕ) : EReal :=
  if h : g < NV then soft (kcs m c) (ka m c n ⟨g, h⟩) (i 1) else 0

/-- The 64 tiles of a batch element make up its voxels: the tile sums add up to the marginal. -/
theorem tiles4_sum (n : Fin 2) (i : S1x16x1.Idx) :
    ∑ s ∈ Finset.range 64, tile4 m c (64 * n.val + s) i = marg (kcs m c) (ka m c n) (i 1) := by
  have hN : cfg0.N = 128 := N_0
  have hn : n.val < 2 := n.isLt
  have key : ∀ s ∈ Finset.range 64, tile4 m c (64 * n.val + s) i
      = ∑ v : Fin 32768, mterm4 m c n i (32768 * s + v.val) := by
    intro s hs
    have hs' : s < 64 := Finset.mem_range.mp hs
    have hlt : 64 * n.val + s < cfg0.N := by omega
    unfold tile4
    rw [dif_pos hlt]
    refine Finset.sum_congr rfl fun v _ => ?_
    have hv : v.val < 32768 := v.isLt
    have hg : 32768 * s + v.val < NV := by show _ < 2097152; omega
    unfold mterm4
    rw [dif_pos hg, ctr_bx2,
      tileX_bx0 m c ⟨64 * n.val + s, hlt⟩ v n ⟨32768 * s + v.val, hg⟩
        (by show n.val = (64 * n.val + s) / 64; omega)
        (by show 32768 * s + v.val = (64 * n.val + s) % 64 * 32768 + v.val; omega)]
  refine (Finset.sum_congr rfl key).trans ((Cert.Hamming.sum_blocks 64 32768 (mterm4 m c n i)).trans ?_)
  unfold marg
  exact Finset.sum_congr rfl fun g _ => by unfold mterm4; exact dif_pos g.isLt

/-- The marginal array the region leaves: at (n, p, 0) the marginal of batch element n at bin p. -/
def G4 : Buf (Elt Ideal) ((c : Thread nD τ).loc main_v3_1) := fun i => marg (kcs m c) (ka m c (i 0)) (i 1)

theorem emb4 (t : Fin cfg0.N) (y : S1x16x1.Idx) (i : S2x16x1.Idx) (h0 : (i 0).val = t.val / 64)
    (h1 : (i 1).val = (y 1).val) (h2 : (i 2).val = (y 2).val) : ((cfg0.win 4).blk t).view.emb y = i := by
  obtain ⟨-, -, -, e3, e4, e5⟩ := idx_facts t
  obtain ⟨e0, e1, e2⟩ := e4
  have hy0 : (y 0).val < 1 := (y 0).isLt
  refine funext fun a => Fin.ext ?_
  match a with
  | ⟨0, _⟩ => show win0_4.index t (0 : Fin 3) * 1 + 1 * (y 0).val = (i 0).val; omega
  | ⟨1, _⟩ => show win0_4.index t (1 : Fin 3) * 16 + 1 * (y 1).val = (i 1).val; omega
  | ⟨2, _⟩ => show win0_4.index t (2 : Fin 3) * 1 + 1 * (y 2).val = (i 2).val; omega

theorem cut4 (t : Fin cfg0.N) (y : S1x16x1.Idx) (X : S1x16x1.Idx → EReal) :
    (cfg0.win 4).cut (grid0.coords t) X y = X y := rfl
theorem read4 (t : Fin cfg0.N) (G : Buf (Elt Ideal) ((c : Thread nD τ).loc main_v3_1)) (y : S1x16x1.Idx) :
    ((cfg0.win 4).blk t).view.read (Elt Ideal) G y = G (((cfg0.win 4).blk t).view.emb y) := rfl
theorem G4_apply (q : Fin 2) (p : Fin 16) (z : Fin 1) :
    G4 m c (ix3 q p z) = marg (kcs m c) (ka m c q) p := rfl

/-- What the last tile of a batch element writes back is that batch element's slab of the marginal array. -/
theorem flushed4 (t : Fin cfg0.N) (hf : (cfg0.win 4).flush t = true) :
    (dats m 0 c).flushed 4 t = ((cfg0.win 4).blk t).view.read (Elt Ideal) (G4 m c) := by
  have h63 : t.val % 64 = 63 := (flush0_4 t).mp hf
  have hN : t.val < 128 := lt_of_lt_of_eq t.isLt (show cfg0.N = 128 from N_0)
  show (cfg0.win 4).cut (grid0.coords t) ((dats m 0 c).after 4 t) = _
  rw [after0_4, fold4]
  refine funext fun (y : S1x16x1.Idx) => ?_
  refine (cut4 t y _).trans ?_
  refine Eq.trans ?_ (read4 c t (G4 m c) y).symm
  rw [emb4 t y (ix3 (⟨t.val / 64, by omega⟩ : Fin 2) (y 1 : Fin 16) (y 2 : Fin 1)) rfl rfl rfl]
  refine Eq.trans ?_ (G4_apply m c ⟨t.val / 64, by omega⟩ (y 1) (y 2)).symm
  rw [acc4_apply m c (t.val / 64) (t.val % 64) (by omega) (run_lt t) y, zero_add, h63]
  exact tiles4_sum m c ⟨t.val / 64, by omega⟩ y

theorem mem_blk4 (t : Fin cfg0.N) (i : S2x16x1.Idx) :
    i ∈ ((cfg0.win 4).blk t).view.set ↔ ∀ a : Fin 3, win0_4.index t a * S1x16x1.size a ≤ (i a).val
      ∧ (i a).val < win0_4.index t a * S1x16x1.size a + S1x16x1.size a := by
  show i ∈ ((View.whole main_v3_1).slice (win0_4.rect t)).set ↔ _
  rw [View.set_slice_whole, Rect.mem_set_unit]
  exact Iff.rfl

/-- Every entry of the marginal array lies in the slab its batch element's last tile writes back. -/
theorem cover4 (i : S2x16x1.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 1 := (i 2).isLt
  have hN : cfg0.N = 128 := N_0
  have hlt : 64 * (i 0).val + 63 < cfg0.N := by omega
  refine ⟨⟨64 * (i 0).val + 63, hlt⟩, (flush0_4 _).mpr (by show (64 * (i 0).val + 63) % 64 = 63; omega), ?_⟩
  rw [mem_blk4]
  obtain ⟨-, -, -, e3, e4, e5⟩ := idx_facts ⟨64 * (i 0).val + 63, hlt⟩
  obtain ⟨e0, e1, e2⟩ := e4
  have e0' : win0_4.index ⟨64 * (i 0).val + 63, hlt⟩ (0 : Fin 3) = (64 * (i 0).val + 63) / 64 := e0
  intro a
  match a with
  | ⟨0, _⟩ =>
    show win0_4.index ⟨64 * (i 0).val + 63, hlt⟩ (0 : Fin 3) * 1 ≤ (i 0).val
      ∧ (i 0).val < win0_4.index ⟨64 * (i 0).val + 63, hlt⟩ (0 : Fin 3) * 1 + 1
    omega
  | ⟨1, _⟩ =>
    show win0_4.index ⟨64 * (i 0).val + 63, hlt⟩ (1 : Fin 3) * 16 ≤ (i 1).val
      ∧ (i 1).val < win0_4.index ⟨64 * (i 0).val + 63, hlt⟩ (1 : Fin 3) * 16 + 16
    omega
  | ⟨2, _⟩ =>
    show win0_4.index ⟨64 * (i 0).val + 63, hlt⟩ (2 : Fin 3) * 1 ≤ (i 2).val
      ∧ (i 2).val < win0_4.index ⟨64 * (i 0).val + 63, hlt⟩ (2 : Fin 3) * 1 + 1
    omega

/-- The marginal array after the run. -/
theorem final4 : (dats m 0 c).arrAt 4 cfg0.N = G4 m c :=
  (dats m 0 c).arrAt_eq_of_cover 4 (G4 m c) (flushed4 m c) (cover4)

/-- Voxel g's term of the marginal sum of batch element n (zero past the last voxel, where it is never used). -/
def mterm5 (n : Fin 2) (i : S1x16x1.Idx) (g : ℕ) : EReal :=
  if h : g < NV then soft (kcs m c) (kb m c n ⟨g, h⟩) (i 1) else 0

/-- The 64 tiles of a batch element make up its voxels: the tile sums add up to the marginal. -/
theorem tiles5_sum (n : Fin 2) (i : S1x16x1.Idx) :
    ∑ s ∈ Finset.range 64, tile5 m c (64 * n.val + s) i = marg (kcs m c) (kb m c n) (i 1) := by
  have hN : cfg0.N = 128 := N_0
  have hn : n.val < 2 := n.isLt
  have key : ∀ s ∈ Finset.range 64, tile5 m c (64 * n.val + s) i
      = ∑ v : Fin 32768, mterm5 m c n i (32768 * s + v.val) := by
    intro s hs
    have hs' : s < 64 := Finset.mem_range.mp hs
    have hlt : 64 * n.val + s < cfg0.N := by omega
    unfold tile5
    rw [dif_pos hlt]
    refine Finset.sum_congr rfl fun v _ => ?_
    have hv : v.val < 32768 := v.isLt
    have hg : 32768 * s + v.val < NV := by show _ < 2097152; omega
    unfold mterm5
    rw [dif_pos hg, ctr_bx2,
      tileX_bx1 m c ⟨64 * n.val + s, hlt⟩ v n ⟨32768 * s + v.val, hg⟩
        (by show n.val = (64 * n.val + s) / 64; omega)
        (by show 32768 * s + v.val = (64 * n.val + s) % 64 * 32768 + v.val; omega)]
  refine (Finset.sum_congr rfl key).trans ((Cert.Hamming.sum_blocks 64 32768 (mterm5 m c n i)).trans ?_)
  unfold marg
  exact Finset.sum_congr rfl fun g _ => by unfold mterm5; exact dif_pos g.isLt

/-- The marginal array the region leaves: at (n, p, 0) the marginal of batch element n at bin p. -/
def G5 : Buf (Elt Ideal) ((c : Thread nD τ).loc main_v3_2) := fun i => marg (kcs m c) (kb m c (i 0)) (i 1)

theorem emb5 (t : Fin cfg0.N) (y : S1x16x1.Idx) (i : S2x16x1.Idx) (h0 : (i 0).val = t.val / 64)
    (h1 : (i 1).val = (y 1).val) (h2 : (i 2).val = (y 2).val) : ((cfg0.win 5).blk t).view.emb y = i := by
  obtain ⟨-, -, -, e3, e4, e5⟩ := idx_facts t
  obtain ⟨e0, e1, e2⟩ := e5
  have hy0 : (y 0).val < 1 := (y 0).isLt
  refine funext fun a => Fin.ext ?_
  match a with
  | ⟨0, _⟩ => show win0_5.index t (0 : Fin 3) * 1 + 1 * (y 0).val = (i 0).val; omega
  | ⟨1, _⟩ => show win0_5.index t (1 : Fin 3) * 16 + 1 * (y 1).val = (i 1).val; omega
  | ⟨2, _⟩ => show win0_5.index t (2 : Fin 3) * 1 + 1 * (y 2).val = (i 2).val; omega

theorem cut5 (t : Fin cfg0.N) (y : S1x16x1.Idx) (X : S1x16x1.Idx → EReal) :
    (cfg0.win 5).cut (grid0.coords t) X y = X y := rfl
theorem read5 (t : Fin cfg0.N) (G : Buf (Elt Ideal) ((c : Thread nD τ).loc main_v3_2)) (y : S1x16x1.Idx) :
    ((cfg0.win 5).blk t).view.read (Elt Ideal) G y = G (((cfg0.win 5).blk t).view.emb y) := rfl
theorem G5_apply (q : Fin 2) (p : Fin 16) (z : Fin 1) :
    G5 m c (ix3 q p z) = marg (kcs m c) (kb m c q) p := rfl

/-- What the last tile of a batch element writes back is that batch element's slab of the marginal array. -/
theorem flushed5 (t : Fin cfg0.N) (hf : (cfg0.win 5).flush t = true) :
    (dats m 0 c).flushed 5 t = ((cfg0.win 5).blk t).view.read (Elt Ideal) (G5 m c) := by
  have h63 : t.val % 64 = 63 := (flush0_5 t).mp hf
  have hN : t.val < 128 := lt_of_lt_of_eq t.isLt (show cfg0.N = 128 from N_0)
  show (cfg0.win 5).cut (grid0.coords t) ((dats m 0 c).after 5 t) = _
  rw [after0_5, fold5]
  refine funext fun (y : S1x16x1.Idx) => ?_
  refine (cut5 t y _).trans ?_
  refine Eq.trans ?_ (read5 c t (G5 m c) y).symm
  rw [emb5 t y (ix3 (⟨t.val / 64, by omega⟩ : Fin 2) (y 1 : Fin 16) (y 2 : Fin 1)) rfl rfl rfl]
  refine Eq.trans ?_ (G5_apply m c ⟨t.val / 64, by omega⟩ (y 1) (y 2)).symm
  rw [acc5_apply m c (t.val / 64) (t.val % 64) (by omega) (run_lt t) y, zero_add, h63]
  exact tiles5_sum m c ⟨t.val / 64, by omega⟩ y

theorem mem_blk5 (t : Fin cfg0.N) (i : S2x16x1.Idx) :
    i ∈ ((cfg0.win 5).blk t).view.set ↔ ∀ a : Fin 3, win0_5.index t a * S1x16x1.size a ≤ (i a).val
      ∧ (i a).val < win0_5.index t a * S1x16x1.size a + S1x16x1.size a := by
  show i ∈ ((View.whole main_v3_2).slice (win0_5.rect t)).set ↔ _
  rw [View.set_slice_whole, Rect.mem_set_unit]
  exact Iff.rfl

/-- Every entry of the marginal array lies in the slab its batch element's last tile writes back. -/
theorem cover5 (i : S2x16x1.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 1 := (i 2).isLt
  have hN : cfg0.N = 128 := N_0
  have hlt : 64 * (i 0).val + 63 < cfg0.N := by omega
  refine ⟨⟨64 * (i 0).val + 63, hlt⟩, (flush0_5 _).mpr (by show (64 * (i 0).val + 63) % 64 = 63; omega), ?_⟩
  rw [mem_blk5]
  obtain ⟨-, -, -, e3, e4, e5⟩ := idx_facts ⟨64 * (i 0).val + 63, hlt⟩
  obtain ⟨e0, e1, e2⟩ := e5
  have e0' : win0_5.index ⟨64 * (i 0).val + 63, hlt⟩ (0 : Fin 3) = (64 * (i 0).val + 63) / 64 := e0
  intro a
  match a with
  | ⟨0, _⟩ =>
    show win0_5.index ⟨64 * (i 0).val + 63, hlt⟩ (0 : Fin 3) * 1 ≤ (i 0).val
      ∧ (i 0).val < win0_5.index ⟨64 * (i 0).val + 63, hlt⟩ (0 : Fin 3) * 1 + 1
    omega
  | ⟨1, _⟩ =>
    show win0_5.index ⟨64 * (i 0).val + 63, hlt⟩ (1 : Fin 3) * 16 ≤ (i 1).val
      ∧ (i 1).val < win0_5.index ⟨64 * (i 0).val + 63, hlt⟩ (1 : Fin 3) * 16 + 16
    omega
  | ⟨2, _⟩ =>
    show win0_5.index ⟨64 * (i 0).val + 63, hlt⟩ (2 : Fin 3) * 1 ≤ (i 2).val
      ∧ (i 2).val < win0_5.index ⟨64 * (i 0).val + 63, hlt⟩ (2 : Fin 3) * 1 + 1
    omega

/-- The marginal array after the run. -/
theorem final5 : (dats m 0 c).arrAt 5 cfg0.N = G5 m c :=
  (dats m 0 c).arrAt_eq_of_cover 5 (G5 m c) (flushed5 m c) (cover5)

end Cert.KernelIdeal.KV

end
-- ==== Proof.KRun.lean ====
/-
  The idealized kernel's run, read: its result is the loss of the two argument volumes.

  After the region the host divides the three result arrays by the voxel count and forms the three entropies and the
  loss from them: the common tail, applied to the joint and marginal soft histograms the region leaves.
-/
import proofs.«118697_j43104291783207_1_alg».proof.Proof.Gen.KernelIdeal.Frame
import proofs.«118697_j43104291783207_1_alg».proof.Proof.KOut
import Idealize.ShloMosaic.Lib.Pipeline.Value
import Idealize.ShloMosaic.Lib.StableHlo.Run
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx Idealize.ShloMosaic.StableHlo Cert.Hist

variable (m : (ℓ : Loc nD τ sig) → Buf (Elt Ideal) ℓ) (ρ : Dev nD → PrngReg)

/-- A marginal array with its trailing unit axis dropped is the 2 x 16 array of marginals. -/
theorem cast4 (c : Dev nD) : shapeCast S2x16 (G4 m c) shapeCasts_S2x16x1_S2x16 = margV (kcs m c) (ka m c) := by
  funext j
  obtain ⟨n, p, rfl⟩ : ∃ (n : Fin 2) (p : Fin 16), j = ix2 n p := ⟨j 0, j 1, eq_ix2 j⟩
  refine (shapeCast_apply (G4 m c) shapeCasts_S2x16x1_S2x16 (ix2 n p) (ix3 n p (0 : Fin 1)) ?_).trans rfl
  show (S2x16x1.rowMajor (ix3 n p (0 : Fin 1))).val = (S2x16.rowMajor (ix2 n p)).val
  rw [Shape.rowMajor_val_three, Shape.rowMajor_val_two]
  show (n.val * 16 + p.val) * 1 + 0 = n.val * 16 + p.val
  omega
theorem cast5 (c : Dev nD) : shapeCast S2x16 (G5 m c) shapeCasts_S2x16x1_S2x16 = margV (kcs m c) (kb m c) := by
  funext j
  obtain ⟨n, p, rfl⟩ : ∃ (n : Fin 2) (p : Fin 16), j = ix2 n p := ⟨j 0, j 1, eq_ix2 j⟩
  refine (shapeCast_apply (G5 m c) shapeCasts_S2x16x1_S2x16 (ix2 n p) (ix3 n p (0 : Fin 1)) ?_).trans rfl
  show (S2x16x1.rowMajor (ix3 n p (0 : Fin 1))).val = (S2x16.rowMajor (ix2 n p)).val
  rw [Shape.rowMajor_val_three, Shape.rowMajor_val_two]
  show (n.val * 16 + p.val) * 1 + 0 = n.val * 16 + p.val
  omega

/-- The host operations after the region are the common tail of the three result arrays. -/
theorem tail_eq (c : Dev nD) :
    Pipeline.afterTail₀ cfgs (dats m) 0 (V0 m) [hostOps1] c main_v46
      = Cert.Hist.tail ((dats m 0 c).arrAt 3 cfg0.N)
          (shapeCast S2x16 ((dats m 0 c).arrAt 4 cfg0.N) shapeCasts_S2x16x1_S2x16)
          (shapeCast S2x16 ((dats m 0 c).arrAt 5 cfg0.N) shapeCasts_S2x16x1_S2x16) := by
  have h3 : Pipeline.withArrays spec0 c (V0 m c) (fun w => (dats m 0 c).arrAt w cfg0.N) (Proc.devRef .tc main_v3_0)
      = (dats m 0 c).arrAt 3 cfg0.N := Pipeline.withArrays_arr spec0 launch0.win.arr_inj c _ _ 3
  have h4 : Pipeline.withArrays spec0 c (V0 m c) (fun w => (dats m 0 c).arrAt w cfg0.N) (Proc.devRef .tc main_v3_1)
      = (dats m 0 c).arrAt 4 cfg0.N := Pipeline.withArrays_arr spec0 launch0.win.arr_inj c _ _ 4
  have h5 : Pipeline.withArrays spec0 c (V0 m c) (fun w => (dats m 0 c).arrAt w cfg0.N) (Proc.devRef .tc main_v3_2)
      = (dats m 0 c).arrAt 5 cfg0.N := Pipeline.withArrays_arr spec0 launch0.win.arr_inj c _ _ 5
  unfold Pipeline.afterTail₀
  show StableHlo.after hostOps1 _ (Proc.devRef .tc main_v46) = _
  after_results_simp
  rw [h3, h4, h5]
  unfold Cert.Hist.tail Cert.Hist.ent3 Cert.Hist.ent2 Cert.Hist.scale3 Cert.Hist.scale2
  rfl

/-- The kernel's result is the loss of the argument volumes. -/
theorem value (c : Dev nD) : Pipeline.afterTail₀ cfgs (dats m) 0 (V0 m) [hostOps1] c main_v46
    = Cert.Hist.loss (m ((c : Thread nD τ).loc main_arg0)) (m ((c : Thread nD τ).loc main_arg1)) := by
  rw [tail_eq, final3, final4, final5, cast4, cast5]
  unfold Cert.Hist.loss Cert.Hist.result G3
  rw [kcs_eq, ka_eq, kb_eq]

/-- Every weakly fair execution of the idealized kernel's program terminates with the result at the loss of the argument
    volumes and the arguments unchanged. -/
theorem run : θ_run defs (onTc (τ := τ) (main (F := Ideal))) ⟨m, fun _ => 0, ρ⟩ fun r => ∀ c : Dev nD,
      r.2.mem ((c : Thread nD τ).loc main_v46)
        = Cert.Hist.loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v46 (Pipeline.mem_restRefs_of main_v46 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KV

end
-- ==== Proof.RefOps.lean ====
/-
  The reference program's @main as a list of its 94 host operations, in its two consecutive parts, and that running
  @main is running that list: every buffer ends at what the second part's operations leave of what the first part's
  leave of the launch contents.
-/
import proofs.«118697_j43104291783207_1_alg».proof.Proof.Gen.ReferenceIdeal
import Idealize.ShloMosaic.Lib.StableHlo.Run

noncomputable section

namespace Cert.Hist.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 (its first window). -/
abbrev ops_part0 : List (HloOp τ sig (Elt F)) :=
  [ StableHlo.nullary main_cst (fun i => FloatOps.ofBits .f32 (lit0 (S16.rowMajor i))),
    StableHlo.reshape main_arg0 main_v0 rfl shapeCasts_S2x1x128x128x128_S2x2097152,
    StableHlo.reshape main_arg1 main_v1 rfl shapeCasts_S2x1x128x128x128_S2x2097152,
    StableHlo.unary main_v0 main_v2 (broadcastInDim S2x2097152x1 ![0, 1] bcast_S2x2097152_S2x2097152x1_0_1 : (⟨S2x2097152, .f32⟩ : BufTy).Contents (Elt F) → (⟨S2x2097152x1, .f32⟩ : BufTy).Contents (Elt F)),
    StableHlo.unary main_cst main_v3 (broadcastInDim S1x1x16 ![2] bcast_S16_S1x1x16_2 : (⟨S16, .f32⟩ : BufTy).Contents (Elt F) → (⟨S1x1x16, .f32⟩ : BufTy).Contents (Elt F)),
    StableHlo.unary main_v2 main_v4 (broadcastInDim S2x2097152x16 ![0, 1, 2] bcast_S2x2097152x1_S2x2097152x16_0_1_2 : (⟨S2x2097152x1, .f32⟩ : BufTy).Contents (Elt F) → (⟨S2x2097152x16, .f32⟩ : BufTy).Contents (Elt F)),
    StableHlo.unary main_v3 main_v5 (broadcastInDim S2x2097152x16 ![0, 1, 2] bcast_S1x1x16_S2x2097152x16_0_1_2 : (⟨S1x1x16, .f32⟩ : BufTy).Contents (Elt F) → (⟨S2x2097152x16, .f32⟩ : BufTy).Contents (Elt F)),
    StableHlo.binary main_v4 main_v5 main_v6 (subf : (⟨S2x2097152x16, .f32⟩ : BufTy).Contents (Elt F) → (⟨S2x2097152x16, .f32⟩ : BufTy).Contents (Elt F) → (⟨S2x2097152x16, .f32⟩ : BufTy).Contents (Elt F)),
    StableHlo.binary main_v6 main_v6 main_v7 (mulf : (⟨S2x2097152x16, .f32⟩ : BufTy).Contents (Elt F) → (⟨S2x2097152x16, .f32⟩ : BufTy).Contents (Elt F) → (⟨S2x2097152x16, .f32⟩ : BufTy).Contents (Elt F)),
    StableHlo.nullary main_cst_0 (constant S_ .f32 0xC62FC800#32),
    StableHlo.unary main_cst_0 main_v8 (broadcastInDim S2x2097152x16 ![] bcast_S_S2x2097152x16 : (⟨S_, .f32⟩ : BufTy).Contents (Elt F) → (⟨S2x2097152x16, .f32⟩ : BufTy).Contents (Elt F)),
    StableHlo.binary main_v8 main_v7 main_v9 (mulf : (⟨S2x2097152x16, .f32⟩ : BufTy).Contents (Elt F) → (⟨S2x2097152x16, .f32⟩ : BufTy).Contents (Elt F) → (⟨S2x2097152x16, .f32⟩ : BufTy).Contents (Elt F)),
    StableHlo.unary main_v9 main_v10 (Host.exp : (⟨S2x2097152x16, .f32⟩ : BufTy).Contents (Elt F) → (⟨S2x2097152x16, .f32⟩ : BufTy).Contents (Elt F)),
    StableHlo.nullary main_cst_1 (constant S_ .f32 0x00000000#32),
    StableHlo.binary main_v10 main_cst_1 main_v11 ((fun x v => Host.reduceAdd x v reducesTo_S2x2097152x16_S2x2097152_d2 h_S_) : (⟨S2x2097152x16, .f32⟩ : BufTy).Contents (Elt F) → (⟨S_, .f32⟩ : BufTy).Contents (Elt F) → (⟨S2x2097152, .f32⟩ : BufTy).Contents (Elt F)),
    StableHlo.unary main_v11 main_v12 (broadcastInDim S2x2097152x1 ![0, 1] bcast_S2x2097152_S2x2097152x1_0_1 : (⟨S2x2097152, .f32⟩ : BufTy).Contents (Elt F) → (⟨S2x2097152x1, .f32⟩ : BufTy).Contents (Elt F)),
    StableHlo.unary main_v12 main_v13 (broadcastInDim S2x2097152x16 ![0, 1, 2] bcast_S2x2097152x1_S2x2097152x16_0_1_2 : (⟨S2x2097152x1, .f32⟩ : BufTy).Contents (Elt F) → (⟨S2x2097152x16, .f32⟩ : BufTy).Contents (Elt F)),
    StableHlo.binary main_v10 main_v13 main_v14 (Host.divf : (⟨S2x2097152x16, .f32⟩ : BufTy).Contents (Elt F) → (⟨S2x2097152x16, .f32⟩ : BufTy).Contents (Elt F) → (⟨S2x2097152x16, .f32⟩ : BufTy).Contents (Elt F)),
    StableHlo.unary main_v1 main_v15 (broadcastInDim S2x2097152x1 ![0, 1] bcast_S2x2097152_S2x2097152x1_0_1 : (⟨S2x2097152, .f32⟩ : BufTy).Contents (Elt F) → (⟨S2x2097152x1, .f32⟩ : BufTy).Contents (Elt F)),
    StableHlo.unary main_cst main_v16 (broadcastInDim S1x1x16 ![2] bcast_S16_S1x1x16_2 : (⟨S16, .f32⟩ : BufTy).Contents (Elt F) → (⟨S1x1x16, .f32⟩ : BufTy).Contents (Elt F)),
    StableHlo.unary main_v15 main_v17 (broadcastInDim S2x2097152x16 ![0, 1, 2] bcast_S2x2097152x1_S2x2097152x16_0_1_2 : (⟨S2x2097152x1, .f32⟩ : BufTy).Contents (Elt F) → (⟨S2x2097152x16, .f32⟩ : BufTy).Contents (Elt F)),
    StableHlo.unary main_v16 main_v18 (broadcastInDim S2x2097152x16 ![0, 1, 2] bcast_S1x1x16_S2x2097152x16_0_1_2 : (⟨S1x1x16, .f32⟩ : BufTy).Contents (Elt F) → (⟨S2x2097152x16, .f32⟩ : BufTy).Contents (Elt F)),
    StableHlo.binary main_v17 main_v18 main_v19 (subf : (⟨S2x2097152x16, .f32⟩ : BufTy).Contents (Elt F) → (⟨S2x2097152x16, .f32⟩ : BufTy).Contents (Elt F) → (⟨S2x2097152x16, .f32⟩ : BufTy).Contents (Elt F)),
    StableHlo.binary main_v19 main_v19 main_v20 (mulf : (⟨S2x2097152x16, .f32⟩ : BufTy).Contents (Elt F) → (⟨S2x2097152x16, .f32⟩ : BufTy).Contents (Elt F) → (⟨S2x2097152x16, .f32⟩ : BufTy).Contents (Elt F)),
    StableHlo.nullary main_cst_2 (constant S_ .f32 0xC62FC800#32),
    StableHlo.unary main_cst_2 main_v21 (broadcastInDim S2x2097152x16 ![] bcast_S_S2x2097152x16 : (⟨S_, .f32⟩ : BufTy).Contents (Elt F) → (⟨S2x2097152x16, .f32⟩ : BufTy).Contents (Elt F)),
    StableHlo.binary main_v21 main_v20 main_v22 (mulf : (⟨S2x2097152x16, .f32⟩ : BufTy).Contents (Elt F) → (⟨S2x2097152x16, .f32⟩ : BufTy).Contents (Elt F) → (⟨S2x2097152x16, .f32⟩ : BufTy).Contents (Elt F)),
    StableHlo.unary main_v22 main_v23 (Host.exp : (⟨S2x2097152x16, .f32⟩ : BufTy).Contents (Elt F) → (⟨S2x2097152x16, .f32⟩ : BufTy).Contents (Elt F)),
    StableHlo.nullary main_cst_3 (constant S_ .f32 0x00000000#32),
    StableHlo.binary main_v23 main_cst_3 main_v24 ((fun x v => Host.reduceAdd x v reducesTo_S2x2097152x16_S2x2097152_d2 h_S_) : (⟨S2x2097152x16, .f32⟩ : BufTy).Contents (Elt F) → (⟨S_, .f32⟩ : BufTy).Contents (Elt F) → (⟨S2x2097152, .f32⟩ : BufTy).Contents (Elt F)),
    StableHlo.unary main_v24 main_v25 (broadcastInDim S2x2097152x1 ![0, 1] bcast_S2x2097152_S2x2097152x1_0_1 : (⟨S2x2097152, .f32⟩ : BufTy).Contents (Elt F) → (⟨S2x2097152x1, .f32⟩ : BufTy).Contents (Elt F)),
    StableHlo.unary main_v25 main_v26 (broadcastInDim S2x2097152x16 ![0, 1, 2] bcast_S2x2097152x1_S2x2097152x16_0_1_2 : (⟨S2x2097152x1, .f32⟩ : BufTy).Contents (Elt F) → (⟨S2x2097152x16, .f32⟩ : BufTy).Contents (Elt F)),
    StableHlo.binary main_v23 main_v26 main_v27 (Host.divf : (⟨S2x2097152x16, .f32⟩ : BufTy).Contents (Elt F) → (⟨S2x2097152x16, .f32⟩ : BufTy).Contents (Elt F) → (⟨S2x2097152x16, .f32⟩ : BufTy).Contents (Elt F)),
    StableHlo.binary main_v14 main_v27 main_v28 ((fun l r => Host.dotGeneral dot_S2x2097152x16_S2x2097152x16_S2x16x16_1_1_2_2_0_0 none l r) : (⟨S2x2097152x16, .f32⟩ : BufTy).Contents (Elt F) → (⟨S2x2097152x16, .f32⟩ : BufTy).Contents (Elt F) → (⟨S2x16x16, .f32⟩ : BufTy).Contents (Elt F)),
    StableHlo.nullary main_cst_4 (constant S_ .f32 0x4A000000#32),
    StableHlo.unary main_cst_4 main_v29 (broadcastInDim S2x16x16 ![] bcast_S_S2x16x16 : (⟨S_, .f32⟩ : BufTy).Contents (Elt F) → (⟨S2x16x16, .f32⟩ : BufTy).Contents (Elt F)),
    StableHlo.binary main_v28 main_v29 main_v30 (Host.divf : (⟨S2x16x16, .f32⟩ : BufTy).Contents (Elt F) → (⟨S2x16x16, .f32⟩ : BufTy).Contents (Elt F) → (⟨S2x16x16, .f32⟩ : BufTy).Contents (Elt F)),
    StableHlo.nullary main_cst_5 (constant S_ .f32 0x00000000#32),
    StableHlo.binary main_v14 main_cst_5 main_v31 ((fun x v => Host.reduceAdd x v reducesTo_S2x2097152x16_S2x16_d1 h_S_) : (⟨S2x2097152x16, .f32⟩ : BufTy).Contents (Elt F) → (⟨S_, .f32⟩ : BufTy).Contents (Elt F) → (⟨S2x16, .f32⟩ : BufTy).Contents (Elt F)),
    StableHlo.nullary main_cst_6 (constant S_ .f32 0x4A000000#32),
    StableHlo.unary main_cst_6 main_v32 (broadcastInDim S2x16 ![] bcast_S_S2x16 : (⟨S_, .f32⟩ : BufTy).Contents (Elt F) → (⟨S2x16, .f32⟩ : BufTy).Contents (Elt F)),
    StableHlo.binary main_v31 main_v32 main_v33 (Host.divf : (⟨S2x16, .f32⟩ : BufTy).Contents (Elt F) → (⟨S2x16, .f32⟩ : BufTy).Contents (Elt F) → (⟨S2x16, .f32⟩ : BufTy).Contents (Elt F)),
    StableHlo.nullary main_cst_7 (constant S_ .f32 0x00000000#32),
    StableHlo.binary main_v27 main_cst_7 main_v34 ((fun x v => Host.reduceAdd x v reducesTo_S2x2097152x16_S2x16_d1 h_S_) : (⟨S2x2097152x16, .f32⟩ : BufTy).Contents (Elt F) → (⟨S_, .f32⟩ : BufTy).Contents (Elt F) → (⟨S2x16, .f32⟩ : BufTy).Contents (Elt F)),
    StableHlo.nullary main_cst_8 (constant S_ .f32 0x4A000000#32),
    StableHlo.unary main_cst_8 main_v35 (broadcastInDim S2x16 ![] bcast_S_S2x16 : (⟨S_, .f32⟩ : BufTy).Contents (Elt F) → (⟨S2x16, .f32⟩ : BufTy).Contents (Elt F)),
    StableHlo.binary main_v34 main_v35 main_v36 (Host.divf : (⟨S2x16, .f32⟩ : BufTy).Contents (Elt F) → (⟨S2x16, .f32⟩ : BufTy).Contents (Elt F) → (⟨S2x16, .f32⟩ : BufTy).Contents (Elt F)),
    StableHlo.nullary main_cst_9 (constant S_ .f32 0x358637BD#32),
    StableHlo.unary main_cst_9 main_v37 (broadcastInDim S2x16x16 ![] bcast_S_S2x16x16 : (⟨S_, .f32⟩ : BufTy).Contents (Elt F) → (⟨S2x16x16, .f32⟩ : BufTy).Contents (Elt F)),
    StableHlo.binary main_v30 main_v37 main_v38 (addf : (⟨S2x16x16, .f32⟩ : BufTy).Contents (Elt F) → (⟨S2x16x16, .f32⟩ : BufTy).Contents (Elt F) → (⟨S2x16x16, .f32⟩ : BufTy).Contents (Elt F)),
    StableHlo.unary main_v38 main_v39 (Host.log : (⟨S2x16x16, .f32⟩ : BufTy).Contents (Elt F) → (⟨S2x16x16, .f32⟩ : BufTy).Contents (Elt F)),
    StableHlo.nullary main_cst_10 (constant S_ .f32 0x40000000#32),
    StableHlo.unary main_cst_10 main_v40 (Host.log : (⟨S_, .f32⟩ : BufTy).Contents (Elt F) → (⟨S_, .f32⟩ : BufTy).Contents (Elt F)),
    StableHlo.unary main_v40 main_v41 (broadcastInDim S2x16x16 ![] bcast_S_S2x16x16 : (⟨S_, .f32⟩ : BufTy).Contents (Elt F) → (⟨S2x16x16, .f32⟩ : BufTy).Contents (Elt F)),
    StableHlo.binary main_v39 main_v41 main_v42 (Host.divf : (⟨S2x16x16, .f32⟩ : BufTy).Contents (Elt F) → (⟨S2x16x16, .f32⟩ : BufTy).Contents (Elt F) → (⟨S2x16x16, .f32⟩ : BufTy).Contents (Elt F)),
    StableHlo.binary main_v30 main_v42 main_v43 (mulf : (⟨S2x16x16, .f32⟩ : BufTy).Contents (Elt F) → (⟨S2x16x16, .f32⟩ : BufTy).Contents (Elt F) → (⟨S2x16x16, .f32⟩ : BufTy).Contents (Elt F)),
    StableHlo.nullary main_cst_11 (constant S_ .f32 0x00000000#32),
    StableHlo.binary main_v43 main_cst_11 main_v44 ((fun x v => Host.reduceAdd x v reducesTo_S2x16x16_S2_d1_2 h_S_) : (⟨S2x16x16, .f32⟩ : BufTy).Contents (Elt F) → (⟨S_, .f32⟩ : BufTy).Contents (Elt F) → (⟨S2, .f32⟩ : BufTy).Contents (Elt F)),
    StableHlo.unary main_v44 main_v45 (Host.negf : (⟨S2, .f32⟩ : BufTy).Contents (Elt F) → (⟨S2, .f32⟩ : BufTy).Contents (Elt F)),
    StableHlo.nullary main_cst_12 (constant S_ .f32 0x358637BD#32) ]

/-- @main's operations 61 … 94 (its second window). -/
abbrev ops_part1 : List (HloOp τ sig (Elt F)) :=
  [ StableHlo.unary main_cst_12 main_v46 (broadcastInDim S2x16 ![] bcast_S_S2x16 : (⟨S_, .f32⟩ : BufTy).Contents (Elt F) → (⟨S2x16, .f32⟩ : BufTy).Contents (Elt F)),
    StableHlo.binary main_v33 main_v46 main_v47 (addf : (⟨S2x16, .f32⟩ : BufTy).Contents (Elt F) → (⟨S2x16, .f32⟩ : BufTy).Contents (Elt F) → (⟨S2x16, .f32⟩ : BufTy).Contents (Elt F)),
    StableHlo.unary main_v47 main_v48 (Host.log : (⟨S2x16, .f32⟩ : BufTy).Contents (Elt F) → (⟨S2x16, .f32⟩ : BufTy).Contents (Elt F)),
    StableHlo.nullary main_cst_13 (constant S_ .f32 0x40000000#32),
    StableHlo.unary main_cst_13 main_v49 (Host.log : (⟨S_, .f32⟩ : BufTy).Contents (Elt F) → (⟨S_, .f32⟩ : BufTy).Contents (Elt F)),
    StableHlo.unary main_v49 main_v50 (broadcastInDim S2x16 ![] bcast_S_S2x16 : (⟨S_, .f32⟩ : BufTy).Contents (Elt F) → (⟨S2x16, .f32⟩ : BufTy).Contents (Elt F)),
    StableHlo.binary main_v48 main_v50 main_v51 (Host.divf : (⟨S2x16, .f32⟩ : BufTy).Contents (Elt F) → (⟨S2x16, .f32⟩ : BufTy).Contents (Elt F) → (⟨S2x16, .f32⟩ : BufTy).Contents (Elt F)),
    StableHlo.binary main_v33 main_v51 main_v52 (mulf : (⟨S2x16, .f32⟩ : BufTy).Contents (Elt F) → (⟨S2x16, .f32⟩ : BufTy).Contents (Elt F) → (⟨S2x16, .f32⟩ : BufTy).Contents (Elt F)),
    StableHlo.nullary main_cst_14 (constant S_ .f32 0x00000000#32),
    StableHlo.binary main_v52 main_cst_14 main_v53 ((fun x v => Host.reduceAdd x v reducesTo_S2x16_S2_d1 h_S_) : (⟨S2x16, .f32⟩ : BufTy).Contents (Elt F) → (⟨S_, .f32⟩ : BufTy).Contents (Elt F) → (⟨S2, .f32⟩ : BufTy).Contents (Elt F)),
    StableHlo.unary main_v53 main_v54 (Host.negf : (⟨S2, .f32⟩ : BufTy).Contents (Elt F) → (⟨S2, .f32⟩ : BufTy).Contents (Elt F)),
    StableHlo.nullary main_cst_15 (constant S_ .f32 0x358637BD#32),
    StableHlo.unary main_cst_15 main_v55 (broadcastInDim S2x16 ![] bcast_S_S2x16 : (⟨S_, .f32⟩ : BufTy).Contents (Elt F) → (⟨S2x16, .f32⟩ : BufTy).Contents (Elt F)),
    StableHlo.binary main_v36 main_v55 main_v56 (addf : (⟨S2x16, .f32⟩ : BufTy).Contents (Elt F) → (⟨S2x16, .f32⟩ : BufTy).Contents (Elt F) → (⟨S2x16, .f32⟩ : BufTy).Contents (Elt F)),
    StableHlo.unary main_v56 main_v57 (Host.log : (⟨S2x16, .f32⟩ : BufTy).Contents (Elt F) → (⟨S2x16, .f32⟩ : BufTy).Contents (Elt F)),
    StableHlo.nullary main_cst_16 (constant S_ .f32 0x40000000#32),
    StableHlo.unary main_cst_16 main_v58 (Host.log : (⟨S_, .f32⟩ : BufTy).Contents (Elt F) → (⟨S_, .f32⟩ : BufTy).Contents (Elt F)),
    StableHlo.unary main_v58 main_v59 (broadcastInDim S2x16 ![] bcast_S_S2x16 : (⟨S_, .f32⟩ : BufTy).Contents (Elt F) → (⟨S2x16, .f32⟩ : BufTy).Contents (Elt F)),
    StableHlo.binary main_v57 main_v59 main_v60 (Host.divf : (⟨S2x16, .f32⟩ : BufTy).Contents (Elt F) → (⟨S2x16, .f32⟩ : BufTy).Contents (Elt F) → (⟨S2x16, .f32⟩ : BufTy).Contents (Elt F)),
    StableHlo.binary main_v36 main_v60 main_v61 (mulf : (⟨S2x16, .f32⟩ : BufTy).Contents (Elt F) → (⟨S2x16, .f32⟩ : BufTy).Contents (Elt F) → (⟨S2x16, .f32⟩ : BufTy).Contents (Elt F)),
    StableHlo.nullary main_cst_17 (constant S_ .f32 0x00000000#32),
    StableHlo.binary main_v61 main_cst_17 main_v62 ((fun x v => Host.reduceAdd x v reducesTo_S2x16_S2_d1 h_S_) : (⟨S2x16, .f32⟩ : BufTy).Contents (Elt F) → (⟨S_, .f32⟩ : BufTy).Contents (Elt F) → (⟨S2, .f32⟩ : BufTy).Contents (Elt F)),
    StableHlo.unary main_v62 main_v63 (Host.negf : (⟨S2, .f32⟩ : BufTy).Contents (Elt F) → (⟨S2, .f32⟩ : BufTy).Contents (Elt F)),
    StableHlo.binary main_v54 main_v63 main_v64 (addf : (⟨S2, .f32⟩ : BufTy).Contents (Elt F) → (⟨S2, .f32⟩ : BufTy).Contents (Elt F) → (⟨S2, .f32⟩ : BufTy).Contents (Elt F)),
    StableHlo.binary main_v45 main_v64 main_v65 (Host.divf : (⟨S2, .f32⟩ : BufTy).Contents (Elt F) → (⟨S2, .f32⟩ : BufTy).Contents (Elt F) → (⟨S2, .f32⟩ : BufTy).Contents (Elt F)),
    StableHlo.nullary main_cst_18 (constant S_ .f32 0x3F800000#32),
    StableHlo.unary main_cst_18 main_v66 (broadcastInDim S2 ![] bcast_S_S2 : (⟨S_, .f32⟩ : BufTy).Contents (Elt F) → (⟨S2, .f32⟩ : BufTy).Contents (Elt F)),
    StableHlo.binary main_v66 main_v65 main_v67 (subf : (⟨S2, .f32⟩ : BufTy).Contents (Elt F) → (⟨S2, .f32⟩ : BufTy).Contents (Elt F) → (⟨S2, .f32⟩ : BufTy).Contents (Elt F)),
    StableHlo.nullary main_cst_19 (constant S_ .f32 0x40000000#32),
    StableHlo.unary main_cst_19 main_v68 (broadcastInDim S2 ![] bcast_S_S2 : (⟨S_, .f32⟩ : BufTy).Contents (Elt F) → (⟨S2, .f32⟩ : BufTy).Contents (Elt F)),
    StableHlo.binary main_v68 main_v67 main_v69 (mulf : (⟨S2, .f32⟩ : BufTy).Contents (Elt F) → (⟨S2, .f32⟩ : BufTy).Contents (Elt F) → (⟨S2, .f32⟩ : BufTy).Contents (Elt F)),
    StableHlo.nullary main_cst_20 (constant S_ .f32 0x3F800000#32),
    StableHlo.unary main_cst_20 main_v70 (broadcastInDim S2 ![] bcast_S_S2 : (⟨S_, .f32⟩ : BufTy).Contents (Elt F) → (⟨S2, .f32⟩ : BufTy).Contents (Elt F)),
    StableHlo.binary main_v70 main_v69 main_v71 (subf : (⟨S2, .f32⟩ : BufTy).Contents (Elt F) → (⟨S2, .f32⟩ : BufTy).Contents (Elt F) → (⟨S2, .f32⟩ : BufTy).Contents (Elt F)) ]

/-- @main's 94 operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., reshape_bufs_sub .., reshape_bufs_sub .., unary_bufs_sub .., unary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., binary_bufs_sub .., binary_bufs_sub .., nullary_bufs_sub .., binary_bufs_sub .., unary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., unary_bufs_sub .., nullary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., nullary_bufs_sub .., unary_bufs_sub .., unary_bufs_sub .., binary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- Running two lists of operations one after the other is running their concatenation. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- On every device, from any memory with zero counters: every weakly fair execution of @main terminates, and every
    buffer ends at what the second window's operations leave of what the first window's leave of the launch contents. -/
theorem runAfter (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops_part1 (after ops_part0 (launchContents m c)) (Proc.devRef .tc b) :=
  (θ_run defs _ _).mono (fun _ h c b => (h c b).trans (by rw [after_append]))
    (run_seq scopedRefs_eq scopedSems_eq defs main (fun _ => ops) main_eq (fun _ => ops_sub) m ρ)

end Cert.Hist.Ref

end
-- ==== Proof.RefDefs.lean ====
/-
  The stages of the reference's computation as named terms of an argument array: the flattened argument, its
  difference from the table of bin centres, the unnormalised bin weights exp (K d^2), the soft bin assignment (the
  weights over their sum along the bin axis), the joint histogram (two soft assignments contracted over the voxel
  axis), a marginal (a soft assignment summed over the voxel axis), and the result: the shared tail applied to them.
-/
import proofs.«118697_j43104291783207_1_alg».proof.Proof.Gen.ReferenceIdeal
import proofs.«118697_j43104291783207_1_alg».proof.Proof.Spec

noncomputable section

namespace Cert.Hist.Ref

open Cert.ReferenceIdeal Cert.ReferenceIdeal.Gen Idealize.ShloMosaic

/-- The table of the sixteen bin centres, as the program's first operation writes it. -/
def refTable : FVec Ideal S16 .f32 := fun i => FloatOps.ofBits .f32 (lit0 (S16.rowMajor i))

/-- An argument array flattened to one row of voxels per batch element. -/
def refFlat (X : FVec Ideal S2x1x128x128x128 .f32) : FVec Ideal S2x2097152 .f32 :=
  fun i => shapeCast S2x2097152 X shapeCasts_S2x1x128x128x128_S2x2097152 i

/-- Every voxel's intensity minus every bin centre. -/
def refDiff (X : FVec Ideal S2x1x128x128x128 .f32) : FVec Ideal S2x2097152x16 .f32 :=
  subf
    (broadcastInDim S2x2097152x16 ![0, 1, 2] bcast_S2x2097152x1_S2x2097152x16_0_1_2
      (broadcastInDim S2x2097152x1 ![0, 1] bcast_S2x2097152_S2x2097152x1_0_1 (refFlat X)))
    (broadcastInDim S2x2097152x16 ![0, 1, 2] bcast_S1x1x16_S2x2097152x16_0_1_2
      (broadcastInDim S1x1x16 ![2] bcast_S16_S1x1x16_2 refTable))

/-- The unnormalised weight of every bin at every voxel: exp (K d^2). -/
def refW (X : FVec Ideal S2x1x128x128x128 .f32) : FVec Ideal S2x2097152x16 .f32 :=
  Host.exp (mulf (broadcastInDim S2x2097152x16 ![] bcast_S_S2x2097152x16 (constant (F := Ideal) S_ .f32 0xC62FC800#32))
    (mulf (refDiff X) (refDiff X)))

/-- The soft bin assignment: the weights over their sum along the bin axis. -/
def refSoft (X : FVec Ideal S2x1x128x128x128 .f32) : FVec Ideal S2x2097152x16 .f32 :=
  Host.divf (refW X)
    (broadcastInDim S2x2097152x16 ![0, 1, 2] bcast_S2x2097152x1_S2x2097152x16_0_1_2
      (broadcastInDim S2x2097152x1 ![0, 1] bcast_S2x2097152_S2x2097152x1_0_1
        (Host.reduceAdd (refW X) (constant (F := Ideal) S_ .f32 0x00000000#32) reducesTo_S2x2097152x16_S2x2097152_d2 h_S_)))

/-- The joint histogram: two soft assignments contracted over the voxel axis, per batch element. -/
def refJoint (X Y : FVec Ideal S2x1x128x128x128 .f32) : FVec Ideal S2x16x16 .f32 :=
  Host.dotGeneral dot_S2x2097152x16_S2x2097152x16_S2x16x16_1_1_2_2_0_0 none (refSoft X) (refSoft Y)

/-- A marginal histogram: a soft assignment summed over the voxel axis. -/
def refMarg (X : FVec Ideal S2x1x128x128x128 .f32) : FVec Ideal S2x16 .f32 :=
  Host.reduceAdd (refSoft X) (constant (F := Ideal) S_ .f32 0x00000000#32) reducesTo_S2x2097152x16_S2x16_d1 h_S_

/-- The reference's result as one term of the two argument arrays. -/
def refTerm (X Y : FVec Ideal S2x1x128x128x128 .f32) : FVec Ideal S2 .f32 :=
  Cert.Hist.tail (refJoint X Y) (refMarg X) (refMarg Y)

end Cert.Hist.Ref

end
-- ==== Proof.RefRun.lean ====
/-
  The reference's run read back: every execution of @main ends with the result buffer at ONE composed term of the two
  argument arrays, the term of the named stages.  The first window of @main leaves the joint entropy and the two scaled
  marginals; the second window computes the loss from them.
-/
import proofs.«118697_j43104291783207_1_alg».proof.Proof.RefOps
import proofs.«118697_j43104291783207_1_alg».proof.Proof.RefDefs

noncomputable section

namespace Cert.Hist.Ref

open Cert.ReferenceIdeal Cert.ReferenceIdeal.Gen Idealize.ShloMosaic Idealize.ShloMosaic.TcCoe Idealize.SL.Sem Idealize.ShloMosaic.StableHlo

/-- The buffers after @main's first window, and after both. -/
def val1 (V0 : Valuation τ sig (Elt Ideal)) : Valuation τ sig (Elt Ideal) := after ops_part0 V0
def val2 (V0 : Valuation τ sig (Elt Ideal)) : Valuation τ sig (Elt Ideal) := after ops_part1 (val1 V0)

set_option maxRecDepth 8192 in
set_option maxHeartbeats 2000000 in
theorem val1_main_arg0 (V0 : Valuation τ sig (Elt Ideal)) :
    val1 V0 (no_index (Proc.devRef .tc main_arg0)) = V0 (Proc.devRef .tc main_arg0) := by
  unfold val1
  simp only [ops_part0]
  after_results_simp

set_option maxRecDepth 8192 in
set_option maxHeartbeats 2000000 in
theorem val1_main_arg1 (V0 : Valuation τ sig (Elt Ideal)) :
    val1 V0 (no_index (Proc.devRef .tc main_arg1)) = V0 (Proc.devRef .tc main_arg1) := by
  unfold val1
  simp only [ops_part0]
  after_results_simp

set_option maxRecDepth 8192 in
set_option maxHeartbeats 2000000 in
theorem val1_main_cst_12 (V0 : Valuation τ sig (Elt Ideal)) :
    val1 V0 (no_index (Proc.devRef .tc main_cst_12)) = constant (F := Ideal) S_ .f32 0x358637BD#32 := by
  unfold val1
  simp only [ops_part0]
  after_results_simp

set_option maxRecDepth 8192 in
set_option maxHeartbeats 2000000 in
theorem val1_main_v33 (V0 : Valuation τ sig (Elt Ideal)) :
    val1 V0 (no_index (Proc.devRef .tc main_v33)) = Cert.Hist.scale2 (refMarg (V0 (Proc.devRef .tc main_arg0))) := by
  unfold val1
  simp only [ops_part0]
  after_results_simp
  rfl

set_option maxRecDepth 8192 in
set_option maxHeartbeats 2000000 in
theorem val1_main_v36 (V0 : Valuation τ sig (Elt Ideal)) :
    val1 V0 (no_index (Proc.devRef .tc main_v36)) = Cert.Hist.scale2 (refMarg (V0 (Proc.devRef .tc main_arg1))) := by
  unfold val1
  simp only [ops_part0]
  after_results_simp
  rfl

set_option maxRecDepth 8192 in
set_option maxHeartbeats 2000000 in
theorem val1_main_v45 (V0 : Valuation τ sig (Elt Ideal)) :
    val1 V0 (no_index (Proc.devRef .tc main_v45))
      = Cert.Hist.ent3 (Cert.Hist.scale3 (refJoint (V0 (Proc.devRef .tc main_arg0)) (V0 (Proc.devRef .tc main_arg1)))) := by
  unfold val1
  simp only [ops_part0]
  after_results_simp
  rfl

set_option maxRecDepth 8192 in
set_option maxHeartbeats 2000000 in
theorem val2_main_arg0 (V0 : Valuation τ sig (Elt Ideal)) :
    val2 V0 (no_index (Proc.devRef .tc main_arg0)) = V0 (Proc.devRef .tc main_arg0) := by
  unfold val2
  simp only [ops_part1]
  after_results_simp
  exact val1_main_arg0 V0

set_option maxRecDepth 8192 in
set_option maxHeartbeats 2000000 in
theorem val2_main_arg1 (V0 : Valuation τ sig (Elt Ideal)) :
    val2 V0 (no_index (Proc.devRef .tc main_arg1)) = V0 (Proc.devRef .tc main_arg1) := by
  unfold val2
  simp only [ops_part1]
  after_results_simp
  exact val1_main_arg1 V0

set_option maxRecDepth 8192 in
set_option maxHeartbeats 2000000 in
theorem val2_main_v71 (V0 : Valuation τ sig (Elt Ideal)) :
    val2 V0 (no_index (Proc.devRef .tc main_v71)) = refTerm (V0 (Proc.devRef .tc main_arg0)) (V0 (Proc.devRef .tc main_arg1)) := by
  unfold val2
  simp only [ops_part1]
  after_results_simp
  simp only [val1_main_v45, val1_main_v33, val1_main_v36, val1_main_cst_12]
  rfl

/-- On every device, from any memory with zero counters: every weakly fair execution of @main terminates with the
    result at the composed term of the two argument arrays, and the arguments unchanged. -/
theorem runTerm (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
      ⟨(h c main_v71).trans (val2_main_v71 (launchContents m c)),
       (h c main_arg0).trans (val2_main_arg0 (launchContents m c)),
       (h c main_arg1).trans (val2_main_arg1 (launchContents m c))⟩)
    (runAfter m ρ)

end Cert.Hist.Ref

end
-- ==== Proof.RefReadSoft.lean ====
/-
  The soft bin assignment read at an index.  At batch element n, voxel g and bin i the reference's chain of
  broadcasts, subtraction, square, scale, exponential, sum over the bin axis and division is
  soft cs (flat X n g) i: the weight exp (K (x - c_i)^2) of bin i at the voxel's intensity x over the sum of the
  sixteen weights.  Each broadcast is read at an index; the table entry at bin i is the i-th centre; the sum over the
  last axis is the initial value 0 plus the sum over the sixteen bins.
-/
import proofs.«118697_j43104291783207_1_alg».proof.Proof.RefDefs
import Idealize.ShloMosaic.Lib.Pipeline.Value
import Idealize.ShloMosaic.Lib.ValueIdx

noncomputable section

open scoped BigOperators

namespace Cert.Hist.Ref

open Cert.ReferenceIdeal Cert.ReferenceIdeal.Gen Idealize.ShloMosaic Idealize.ShloMosaic.ValueIdx

/-! ## The four broadcasts, read at an index -/

section Broadcasts
variable {α : Type}

/-- A column [2, V, 1] laid along the 16 bins reads the column. -/
theorem bcast_col_apply (x : S2x2097152x1.Idx → α) (n : Fin 2) (g : Fin 2097152) (i : Fin 16) :
    broadcastInDim S2x2097152x16 ![0, 1, 2] bcast_S2x2097152x1_S2x2097152x16_0_1_2 x (ix3 n g i) = x (ix3 n g (0 : Fin 1)) :=
  broadcastInDim_apply _ _ x (ix3 n g i) (ix3 n g (0 : Fin 1)) (by
    intro a; match a with | ⟨0, _⟩ => rfl | ⟨1, _⟩ => rfl | ⟨2, _⟩ => rfl)

/-- An array [2, V] given a trailing unit axis reads the array. -/
theorem bcast_vox_apply (x : S2x2097152.Idx → α) (n : Fin 2) (g : Fin 2097152) (u : Fin 1) :
    broadcastInDim S2x2097152x1 ![0, 1] bcast_S2x2097152_S2x2097152x1_0_1 x (ix3 n g u) = x (ix2 n g) :=
  broadcastInDim_apply _ _ x (ix3 n g u) (ix2 n g) (by
    intro a; match a with | ⟨0, _⟩ => rfl | ⟨1, _⟩ => rfl)

/-- A row [1, 1, 16] laid along every batch element and voxel reads the row. -/
theorem bcast_bin_apply (x : S1x1x16.Idx → α) (n : Fin 2) (g : Fin 2097152) (i : Fin 16) :
    broadcastInDim S2x2097152x16 ![0, 1, 2] bcast_S1x1x16_S2x2097152x16_0_1_2 x (ix3 n g i) = x (ix3 (0 : Fin 1) (0 : Fin 1) i) :=
  broadcastInDim_apply _ _ x (ix3 n g i) (ix3 (0 : Fin 1) (0 : Fin 1) i) (by
    intro a; match a with | ⟨0, _⟩ => rfl | ⟨1, _⟩ => rfl | ⟨2, _⟩ => rfl)

/-- A table [16] given two leading unit axes reads the table. -/
theorem bcast_tab_apply (x : S16.Idx → α) (u v : Fin 1) (i : Fin 16) :
    broadcastInDim S1x1x16 ![2] bcast_S16_S1x1x16_2 x (ix3 u v i) = x (ix1 i) :=
  broadcastInDim_apply _ _ x (ix3 u v i) (ix1 i) (by
    intro a; match a with | ⟨0, _⟩ => rfl)

end Broadcasts

/-- A host division at an index divides the elements. -/
theorem hostDivf_apply {s : Shape} {φ : FTy} (a b : FVec Ideal s φ) (i : s.Idx) : Host.divf a b i = Ideal.div (a i) (b i) := rfl

/-! ## The table, the difference, the weight, the sum of the weights, the soft assignment -/

/-- The program's table of words is the sixteen bin centres' words. -/
theorem lit0_eq : ∀ i : Fin 16, lit0 i = Cert.Hist.lit i := by decide

/-- The table at bin i is the i-th bin centre. -/
theorem refTable_apply (i : Fin 16) : refTable (ix1 i) = Cert.Hist.cs i := by
  have e : (S16.rowMajor (ix1 i) : Fin 16) = i := Fin.ext (Shape.rowMajor_val_one (ix1 i))
  show Ideal.ofBits .f32 (lit0 (S16.rowMajor (ix1 i))) = Ideal.ofBits .f32 (Cert.Hist.lit i)
  rw [e, lit0_eq]

/-- The flattened argument at (n, g) is the argument read at batch element n and voxel g. -/
theorem refFlat_apply (X : FVec Ideal S2x1x128x128x128 .f32) (n : Fin 2) (g : Fin 2097152) :
    refFlat X (ix2 n g) = Cert.Hist.flat X n g := rfl

/-- The difference at (n, g, i): the voxel's intensity minus the i-th centre. -/
theorem refDiff_apply (X : FVec Ideal S2x1x128x128x128 .f32) (n : Fin 2) (g : Fin 2097152) (i : Fin 16) :
    refDiff X (ix3 n g i) = Cert.Hist.flat X n g - Cert.Hist.cs i := by
  unfold refDiff
  rw [subf_apply, bcast_col_apply, bcast_vox_apply, bcast_bin_apply, bcast_tab_apply, refTable_apply, refFlat_apply]

/-- The weight at (n, g, i): exp (K (x - c_i)^2) at the voxel's intensity x. -/
theorem refW_apply (X : FVec Ideal S2x1x128x128x128 .f32) (n : Fin 2) (g : Fin 2097152) (i : Fin 16) :
    refW X (ix3 n g i) = Cert.Hist.wt (Cert.Hist.cs i) (Cert.Hist.flat X n g) := by
  unfold refW
  show Ideal.exp (Ideal.ofBits .f32 0xC62FC800#32 * (refDiff X (ix3 n g i) * refDiff X (ix3 n g i))) = _
  rw [refDiff_apply]
  rfl

theorem hR2 : S2x2097152x16.Reduces [2] S2x2097152 := by decide

/-- The sum of the weights over the bin axis at (n, g): the sum over the sixteen bins (the initial value is 0). -/
theorem refSum_apply (X : FVec Ideal S2x1x128x128x128 .f32) (n : Fin 2) (g : Fin 2097152) :
    Host.reduceAdd (refW X) (constant (F := Ideal) S_ .f32 0x00000000#32) reducesTo_S2x2097152x16_S2x2097152_d2 h_S_ (ix2 n g)
      = ∑ k : Fin 16, Cert.Hist.wt (Cert.Hist.cs k) (Cert.Hist.flat X n g) := by
  show Ideal.hostReduceAdd _ _ _ (ix2 n g) = _
  rw [Ideal.hostReduceAdd_single _ hR2]
  show Ideal.ofBits .f32 0x00000000#32 + ∑ k : Fin 16, refW X (hR2.lift (ix2 n g) k) = _
  rw [Ideal.ofBits_zero_f32, zero_add]
  refine Finset.sum_congr rfl fun k _ => ?_
  have e : hR2.lift (ix2 n g) k = ix3 n g k :=
    funext fun a => Fin.ext (by match a with | ⟨0, _⟩ => rfl | ⟨1, _⟩ => rfl | ⟨2, _⟩ => rfl)
  rw [e]
  exact refW_apply X n g k

/-- The soft assignment at (n, g, i). -/
theorem refSoft_apply (X : FVec Ideal S2x1x128x128x128 .f32) (n : Fin 2) (g : Fin 2097152) (i : Fin 16) :
    refSoft X (ix3 n g i) = Cert.Hist.soft Cert.Hist.cs (Cert.Hist.flat X n g) i := by
  unfold refSoft
  rw [hostDivf_apply, bcast_col_apply, bcast_vox_apply, refSum_apply, refW_apply]
  rfl

end Cert.Hist.Ref

end
-- ==== Proof.RefReadHist.lean ====
/-
  The two histograms read at an index.  A marginal at (n, i) is the initial value 0 plus the sum over the voxel axis of
  the soft assignment at (n, g, i).  The joint histogram at (n, i, j) is the contraction's sum, over its one-axis
  contraction index, of the left operand at (n, g, i) times the right operand at (n, g, j); re-indexed by the voxel
  g : Fin 2097152 it is the sum over the voxels of soft_i(a g) * soft_j(b g).
-/
import proofs.«118697_j43104291783207_1_alg».proof.Proof.RefReadSoft

noncomputable section

open scoped BigOperators

namespace Cert.Hist.Ref

open Cert.ReferenceIdeal Cert.ReferenceIdeal.Gen Idealize.ShloMosaic Idealize.ShloMosaic.ValueIdx

theorem hR1 : S2x2097152x16.Reduces [1] S2x16 := by decide

/-- A marginal at (n, i): the sum over the voxels of the soft assignment to bin i. -/
theorem refMarg_apply (X : FVec Ideal S2x1x128x128x128 .f32) (n : Fin 2) (i : Fin 16) :
    refMarg X (ix2 n i) = Cert.Hist.marg Cert.Hist.cs (Cert.Hist.flat X n) i := by
  unfold refMarg Cert.Hist.marg
  show Ideal.hostReduceAdd _ _ _ (ix2 n i) = _
  rw [Ideal.hostReduceAdd_single _ hR1]
  show Ideal.ofBits .f32 0x00000000#32 + ∑ g : Fin 2097152, refSoft X (hR1.lift (ix2 n i) g) = _
  rw [Ideal.ofBits_zero_f32, zero_add]
  refine Finset.sum_congr rfl fun g _ => ?_
  have e : hR1.lift (ix2 n i) g = ix3 n g i :=
    funext fun a => Fin.ext (by match a with | ⟨0, _⟩ => rfl | ⟨1, _⟩ => rfl | ⟨2, _⟩ => rfl)
  rw [e]
  exact refSoft_apply X n g i

/-- The contraction's dimension numbers: batch axis 0, both operands contracted along axis 1. -/
abbrev dotD : DotDims S2x2097152x16 S2x2097152x16 S2x16x16 := dot_S2x2097152x16_S2x2097152x16_S2x16x16_1_1_2_2_0_0

/-- The contraction index is the voxel. -/
def voxE : dotD.contr.Idx ≃ Fin 2097152 := contrEquiv1 dotD 2097152 rfl rfl

/-- The left operand's index at result index (n, i, j) and voxel g is (n, g, i). -/
theorem lhsIdx_vox (n : Fin 2) (i j : Fin 16) (g : Fin 2097152) :
    dotD.lhsIdx (ix3 n i j) (voxE.symm g) = ix3 n g i :=
  funext fun a => Fin.ext (by
    match a with
    | ⟨0, _⟩ => rfl
    | ⟨1, _⟩ =>
      exact (dotD.lhsIdx_val_of_single (cl := (1 : Fin 3)) rfl (ix3 n i j) (voxE.symm g)).trans
        (contrEquiv1_symm_val dotD 2097152 rfl rfl g)
    | ⟨2, _⟩ => rfl)

/-- The right operand's index at result index (n, i, j) and voxel g is (n, g, j). -/
theorem rhsIdx_vox (n : Fin 2) (i j : Fin 16) (g : Fin 2097152) :
    dotD.rhsIdx (ix3 n i j) (voxE.symm g) = ix3 n g j :=
  funext fun a => Fin.ext (by
    match a with
    | ⟨0, _⟩ => rfl
    | ⟨1, _⟩ =>
      exact (dotD.rhsIdx_val_of_single (cr := (1 : Fin 3)) rfl (ix3 n i j) (voxE.symm g)).trans
        (contrEquiv1_symm_val dotD 2097152 rfl rfl g)
    | ⟨2, _⟩ => rfl)

/-- The joint histogram at (n, i, j): the sum over the voxels of soft_i(a g) * soft_j(b g). -/
theorem refJoint_apply (X Y : FVec Ideal S2x1x128x128x128 .f32) (n : Fin 2) (i j : Fin 16) :
    refJoint X Y (ix3 n i j) = Cert.Hist.joint Cert.Hist.cs (Cert.Hist.flat X n) (Cert.Hist.flat Y n) i j := by
  unfold refJoint Cert.Hist.joint
  refine (Ideal.dotGeneral_apply dotD none .single (refSoft X) (refSoft Y) (ix3 n i j)).trans ?_
  refine (Equiv.sum_comp voxE.symm fun k => refSoft X (dotD.lhsIdx (ix3 n i j) k) * refSoft Y (dotD.rhsIdx (ix3 n i j) k)).symm.trans ?_
  refine Finset.sum_congr rfl fun g _ => ?_
  show refSoft X (dotD.lhsIdx (ix3 n i j) (voxE.symm g)) * refSoft Y (dotD.rhsIdx (ix3 n i j) (voxE.symm g)) = _
  rw [lhsIdx_vox, rhsIdx_vox, refSoft_apply, refSoft_apply]

end Cert.Hist.Ref

end
-- ==== Proof.RefValue.lean ====
/-
  The reference's value.  Its joint histogram and its two marginals are, index by index, the common value's joint
  and marginal sums of the flattened arguments; the shared tail applied to equal histograms gives equal losses.  So
  every execution of the reference ends with the result buffer at loss X Y of the two argument arrays, the arguments
  unchanged.
-/
import proofs.«118697_j43104291783207_1_alg».proof.Proof.RefRun
import proofs.«118697_j43104291783207_1_alg».proof.Proof.RefReadHist

noncomputable section

namespace Cert.Hist.Ref

open Idealize.ShloMosaic Idealize.ShloMosaic.TcCoe Idealize.SL.Sem Cert.ReferenceIdeal
open Idealize.ShloMosaic.ValueIdx

/-- The reference's joint histogram is the common value's. -/
theorem refJoint_eq (X Y : FVec Ideal S2x1x128x128x128 .f32) :
    refJoint X Y = Cert.Hist.jointV Cert.Hist.cs (Cert.Hist.flat X) (Cert.Hist.flat Y) := by
  funext q
  obtain ⟨n, i, j, rfl⟩ : ∃ (n : Fin 2) (i j : Fin 16), q = ix3 n i j := ⟨q 0, q 1, q 2, eq_ix3 q⟩
  exact refJoint_apply X Y n i j

/-- The reference's marginal is the common value's. -/
theorem refMarg_eq (X : FVec Ideal S2x1x128x128x128 .f32) :
    refMarg X = Cert.Hist.margV Cert.Hist.cs (Cert.Hist.flat X) := by
  funext q
  obtain ⟨n, i, rfl⟩ : ∃ (n : Fin 2) (i : Fin 16), q = ix2 n i := ⟨q 0, q 1, eq_ix2 q⟩
  exact refMarg_apply X n i

/-- The reference's result term is the loss of the two argument arrays. -/
theorem refTerm_eq (X Y : FVec Ideal S2x1x128x128x128 .f32) : refTerm X Y = Cert.Hist.loss X Y := by
  unfold refTerm Cert.Hist.loss Cert.Hist.result
  rw [refJoint_eq, refMarg_eq, refMarg_eq]

/-- On every device, from any memory with zero counters: every weakly fair execution of the reference terminates with
    the result at the loss of the two argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = Cert.Hist.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (refTerm_eq _ _), (h c).2⟩) (runTerm m ρ)

end Cert.Hist.Ref

end
-- ==== Proof.lean ====
/-
  The certificate of a soft-histogram mutual-information loss: a tiled accelerator kernel against its plain reference.

  Both programs take two volumes of 2 x 2097152 intensities.  Each voxel is assigned softly to 16 bins (Gaussian
  weights of its distance to the bin centres, normalised over the bins); per batch element the joint histogram is the
  sum over voxels of the outer product of the two volumes' assignments and the marginals are the sums of the
  assignments; the loss is 1 - 2 (1 - Hxy / (Hx + Hy)) of the three entropies of the histograms divided by the voxel count.

  The kernel walks a grid of 2 x 64 points, one batch element and one tile of 32768 voxels each, resets three small
  accumulators at the first tile of a batch element and adds the tile's contributions at every tile (the joint
  contribution is a matrix product of the two assignment matrices, narrowed to a shorter float format on the way in);
  the host then forms the loss.  The reference contracts over all voxels at once.  On the extended reals a change of
  float format is the identity, a matrix product into a zero accumulator and the host's contraction are the same sum,
  and addition is associative and commutative with 0 neutral, so the 64 tile sums of a batch element add up to the sum
  over all its voxels: both programs end at one value, `Cert.Hist.loss` of the argument volumes, and no finiteness of
  the inputs is needed.  The three frame claims are the generated frame runs (the reference's its run with the result
  dropped); the idealization rewrote nothing, so `preserves` is trivial.
-/
import proofs.«118697_j43104291783207_1_alg».proof.Defs
import proofs.«118697_j43104291783207_1_alg».proof.Proof.Gen.Kernel
import proofs.«118697_j43104291783207_1_alg».proof.Proof.Gen.Kernel.Frame
import proofs.«118697_j43104291783207_1_alg».proof.Proof.Gen.KernelIdeal
import proofs.«118697_j43104291783207_1_alg».proof.Proof.Gen.KernelIdeal.Frame
import proofs.«118697_j43104291783207_1_alg».proof.Proof.Gen.ReferenceIdeal
import proofs.«118697_j43104291783207_1_alg».proof.Proof.Gen.Pre_finite_inputs
import proofs.«118697_j43104291783207_1_alg».proof.Proof.KRun
import proofs.«118697_j43104291783207_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Hist.Ref.run m ρ)

/-- From memories agreeing on the arguments both idealized programs end at the loss of the argument volumes. -/
theorem algebraic : Cert.algebraic_KernelIdeal_ReferenceIdeal := by
  intro m ρ m' ρ' _ hagree
  refine ⟨fun c => Cert.Hist.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.KV.run m ρ, ?_⟩
  refine (θ_run Cert.ReferenceIdeal.defs _ _).mono (fun _ h c => ⟨(h c).1.trans ?_, (h c).2⟩)
    (Cert.Hist.Ref.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
